-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x50000x64 : Shape := ⟨3, ![32, 50000, 64]⟩
abbrev S50x50000 : Shape := ⟨2, ![50, 50000]⟩
abbrev S_ : Shape := ⟨0, ![]⟩

class Facts : Prop where
  bcast_S_S32x50000x64 : S_.BroadcastsInDim S32x50000x64 (![] : Fin 0 → Fin S32x50000x64.rank)
  reducesTo_S32x50000x64_S_d0_1_2 : S32x50000x64.ReducesTo [0, 1, 2] S_
  h_S_ : 0 < S_.numel

variable [Facts]

def fn {F : FTy → Type} [FloatOps F] (main_arg0 : FVec F S32x50000x64 .f32) (main_arg1 : IVec S50x50000 32) : IVec S_ 1 :=
  let main_v0 : FVec F S32x50000x64 .f32 := Host.absf main_arg0
  let main_cst : FVec F S_ .f32 := constant S_ .f32 0x7F800000#32
  let main_v1 : FVec F S32x50000x64 .f32 := broadcastInDim S32x50000x64 ![] bcast_S_S32x50000x64 main_cst
  let main_v2 : IVec S32x50000x64 1 := cmpf .olt main_v0 main_v1
  let main_c : IVec S_ 1 := constantI S_ 1 1#1
  let main_v3 : IVec S_ 1 := (fun x v => Host.reduce IntOp.andi x v reducesTo_S32x50000x64_S_d0_1_2 h_S_) main_v2 main_c
  main_v3
-- ==== Kernel.lean ====
abbrev S32x50000x64 : Shape := ⟨3, ![32, 50000, 64]⟩
abbrev S50x50000 : Shape := ⟨2, ![50, 50000]⟩
abbrev S2x50x64 : Shape := ⟨3, ![2, 50, 64]⟩
abbrev S2x50x1 : Shape := ⟨3, ![2, 50, 1]⟩
abbrev S1x6400x64 : Shape := ⟨3, ![1, 6400, 64]⟩
abbrev S50x6400 : Shape := ⟨2, ![50, 6400]⟩
abbrev S1x50x64 : Shape := ⟨3, ![1, 50, 64]⟩
abbrev S1x50x1 : Shape := ⟨3, ![1, 50, 1]⟩
abbrev S50x64 : Shape := ⟨2, ![50, 64]⟩
abbrev S50x1 : Shape := ⟨2, ![50, 1]⟩
abbrev S50 : Shape := ⟨1, ![50]⟩
abbrev S6400x64 : Shape := ⟨2, ![6400, 64]⟩
abbrev S32x50x64 : Shape := ⟨3, ![32, 50, 64]⟩

abbrev nBuf : Space → Nat
  | .hbm => 18
  | .vmem => 10
  | .smem => 0
  | _ => 0

abbrev bufTy : (tb : Table) → Fin (tcTables nBuf tb) → BufTy
  | .hbm, ⟨0, _⟩ => ⟨S32x50000x64, .f32⟩
  | .hbm, ⟨1, _⟩ => ⟨S50x50000, .i32⟩
  | .hbm, ⟨2, _⟩ => ⟨S2x50x64, .f32⟩
  | .hbm, ⟨3, _⟩ => ⟨S2x50x1, .f32⟩
  | .hbm, ⟨4, _⟩ => ⟨S1x50x64, .f32⟩
  | .hbm, ⟨5, _⟩ => ⟨S50x64, .f32⟩
  | .hbm, ⟨6, _⟩ => ⟨S1x50x64, .f32⟩
  | .hbm, ⟨7, _⟩ => ⟨S50x64, .f32⟩
  | .hbm, ⟨8, _⟩ => ⟨S50x64, .f32⟩
  | .hbm, ⟨9, _⟩ => ⟨S1x50x1, .f32⟩
  | .hbm, ⟨10, _⟩ => ⟨S50x1, .f32⟩
  | .hbm, ⟨11, _⟩ => ⟨S1x50x1, .f32⟩
  | .hbm, ⟨12, _⟩ => ⟨S50x1, .f32⟩
  | .hbm, ⟨13, _⟩ => ⟨S50x1, .f32⟩
  | .hbm, ⟨14, _⟩ => ⟨S50x64, .f32⟩
  | .hbm, ⟨15, _⟩ => ⟨S50x64, .f32⟩
  | .hbm, ⟨16, _⟩ => ⟨S1x50x64, .f32⟩
  | .hbm, ⟨17, _⟩ => ⟨S32x50x64, .f32⟩
  | .local _ .vmem, ⟨0, _⟩ => ⟨S1x6400x64, .f32⟩
  | .local _ .vmem, ⟨1, _⟩ => ⟨S1x6400x64, .f32⟩
  | .local _ .vmem, ⟨2, _⟩ => ⟨S50x6400, .i32⟩
  | .local _ .vmem, ⟨3, _⟩ => ⟨S50x6400, .i32⟩
  | .local _ .vmem, ⟨4, _⟩ => ⟨S1x50x64, .f32⟩
  | .local _ .vmem, ⟨5, _⟩ => ⟨S1x50x64, .f32⟩
  | .local _ .vmem, ⟨6, _⟩ => ⟨S1x50x1, .f32⟩
  | .local _ .vmem, ⟨7, _⟩ => ⟨S1x50x1, .f32⟩
  | .local _ .vmem, ⟨8, _⟩ => ⟨S50x64, .f32⟩
  | .local _ .vmem, ⟨9, _⟩ => ⟨S50x1, .f32⟩
  | _, _ => ⟨S32x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_15 : BitVec 32 := 0#32
  let v37 : BitVec 1 := Scalar.cmpi .ne v36 c0_i32_15
  v37

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S50x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x50x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x50x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S50x64_S50x64_0_0 : ∀ a, (![0, 0] : Fin 2 → Nat) a + S50x64.size a ≤ S50x64.size a
  h_S50x64 : 0 < S50x64.numel
  shapeCasts_S50x64_S50x64 : S50x64.ShapeCasts S50x64
  inb_S50x1_S50x1_0_0 : ∀ a, (![0, 0] : Fin 2 → Nat) a + S50x1.size a ≤ S50x1.size a
  h_S50x1 : 0 < S50x1.numel
  shapeCasts_S50x1_S50x1 : S50x1.ShapeCasts S50x1
  iota_S50x6400_d1_w32 : S50x6400.Iotas .tc 32 [1]
  inb_S50x6400_S50x6400_0_0 : ∀ a, (![0, 0] : Fin 2 → Nat) a + S50x6400.size a ≤ S50x6400.size a
  h_S50x6400 : 0 < S50x6400.numel
  natLt_1_32 : 1 < 32
  reduces_S50x6400_S50 : S50x6400.Reduces [1] S50
  shapeCasts_S50_S50x1 : S50.ShapeCasts S50x1
  bitsLt_bf16_f32 : FTy.bits .bf16 < FTy.bits .f32
  inb_S1x6400x64_S1x6400x64_0_0_0 : ∀ a, (![0, 0, 0] : Fin 3 → Nat) a + S1x6400x64.size a ≤ S1x6400x64.size a
  h_S1x6400x64 : 0 < S1x6400x64.numel
  shapeCasts_S1x6400x64_S6400x64 : S1x6400x64.ShapeCasts S6400x64
  inb_S1x50x64_S1x50x64_0_0_0 : ∀ a, (![0, 0, 0] : Fin 3 → Nat) a + S1x50x64.size a ≤ S1x50x64.size a
  h_S1x50x64 : 0 < S1x50x64.numel
  shapeCasts_S1x50x64_S50x64 : S1x50x64.ShapeCasts S50x64
  shapeCasts_S50x64_S1x50x64 : S50x64.ShapeCasts S1x50x64
  inb_S1x50x1_S1x50x1_0_0_0 : ∀ a, (![0, 0, 0] : Fin 3 → Nat) a + S1x50x1.size a ≤ S1x50x1.size a
  h_S1x50x1 : 0 < S1x50x1.numel
  shapeCasts_S1x50x1_S50x1 : S1x50x1.ShapeCasts S50x1
  shapeCasts_S50x1_S1x50x1 : S50x1.ShapeCasts S1x50x1
  slices_S2x50x64_S1x50x64_0_0_0 : S2x50x64.Slices ![0, 0, 0] S1x50x64
  slices_S2x50x64_S1x50x64_1_0_0 : S2x50x64.Slices ![1, 0, 0] S1x50x64
  slices_S2x50x1_S1x50x1_0_0_0 : S2x50x1.Slices ![0, 0, 0] S1x50x1
  slices_S2x50x1_S1x50x1_1_0_0 : S2x50x1.Slices ![1, 0, 0] S1x50x1
  bcast_S50x1_S50x64_0_1 : S50x1.BroadcastsInDim S50x64 (![0, 1] : Fin 2 → Fin S50x64.rank)
  bcast_S50x64_S1x50x64_1_2 : S50x64.BroadcastsInDim S1x50x64 (![1, 2] : Fin 2 → Fin S1x50x64.rank)
  bcast_S1x50x64_S32x50x64_0_1_2 : S1x50x64.BroadcastsInDim S32x50x64 (![0, 1, 2] : Fin 3 → Fin S32x50x64.rank)
  dot_S50x6400_S6400x64_S50x64_1_0_0_1_n_n_wf : DotDims.WF S50x6400 S6400x64 S50x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x6400x64.size a < S32x50000x64.size a
  hwx0_0 : ∀ i : grid0.Coords, EltTy.bits .f32 = 32 ∨ (Rect.unit (s := S32x50000x64) (fun a => cc0_transform_0 i a * S1x6400x64.size a) (fun a => (Pipeline.Clip.of (cc0_transform_0 i a) (S1x6400x64.size a) (S32x50000x64.size a)).extent (S1x6400x64.size a)) fun a => Pipeline.Clip.inb (Pipeline.Clip.ok_of (hstart0_0 i a))).WholeWords (EltTy.packing .f32)
  hwxs0_0 : ∀ i : grid0.Coords, EltTy.bits .f32 = 32 ∨ (Rect.unit (s := S1x6400x64) (fun _ => 0) (fun a => (Pipeline.Clip.of (cc0_transform_0 i a) (S1x6400x64.size a) (S32x50000x64.size a)).extent (S1x6400x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S50x6400.size a < S50x50000.size a
  hwx0_1 : ∀ i : grid0.Coords, EltTy.bits .i32 = 32 ∨ (Rect.unit (s := S50x50000) (fun a => cc0_transform_1 i a * S50x6400.size a) (fun a => (Pipeline.Clip.of (cc0_transform_1 i a) (S50x6400.size a) (S50x50000.size a)).extent (S50x6400.size a)) fun a => Pipeline.Clip.inb (Pipeline.Clip.ok_of (hstart0_1 i a))).WholeWords (EltTy.packing .i32)
  hwxs0_1 : ∀ i : grid0.Coords, EltTy.bits .i32 = 32 ∨ (Rect.unit (s := S50x6400) (fun _ => 0) (fun a => (Pipeline.Clip.of (cc0_transform_1 i a) (S50x6400.size a) (S50x50000.size a)).extent (S50x6400.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x50x64.size a ≤ S2x50x64.size a
  hwx0_2 : ∀ i : grid0.Coords, EltTy.bits .f32 = 32 ∨ (Rect.block (s := S2x50x64) S1x50x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x50x1.size a ≤ S2x50x1.size a
  hwx0_3 : ∀ i : grid0.Coords, EltTy.bits .f32 = 32 ∨ (Rect.block (s := S2x50x1) S1x50x1.size (cc0_transform_3 i) (hinb0_3 i)).WholeWords (EltTy.packing .f32)

variable [Facts₀]

def dot_S50x6400_S6400x64_S50x64_1_0_0_1_n_n : DotDims S50x6400 S6400x64 S50x64 where
  lhsContracting := [1]
  rhsContracting := [0]
  lhsNonContracting := [0]
  rhsNonContracting := [1]
  lhsBatch := []
  rhsBatch := []
  wf := dot_S50x6400_S6400x64_S50x64_1_0_0_1_n_n_wf

abbrev win0_0 : Pipeline.Window sig grid0 :=
  Pipeline.Window.ofSpecClip (Memref.whole main_arg0) S1x6400x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S50x6400.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0_0) S1x50x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x50x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x50000x64 : Shape := ⟨3, ![32, 50000, 64]⟩
abbrev S50x50000 : Shape := ⟨2, ![50, 50000]⟩
abbrev S_ : Shape := ⟨0, ![]⟩
abbrev S50 : Shape := ⟨1, ![50]⟩
abbrev S1x50000x64 : Shape := ⟨3, ![1, 50000, 64]⟩
abbrev S50000x64 : Shape := ⟨2, ![50000, 64]⟩
abbrev S50x64 : Shape := ⟨2, ![50, 64]⟩
abbrev S50x1 : Shape := ⟨2, ![50, 1]⟩
abbrev S1x50x64 : Shape := ⟨3, ![1, 50, 64]⟩
abbrev S32x50x64 : Shape := ⟨3, ![32, 50, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x50000x64, .f32⟩
  | .hbm, ⟨1, _⟩ => ⟨S50x50000, .i32⟩
  | .hbm, ⟨2, _⟩ => ⟨S_, .i32⟩
  | .hbm, ⟨3, _⟩ => ⟨S50x50000, .i32⟩
  | .hbm, ⟨4, _⟩ => ⟨S50x50000, .i1⟩
  | .hbm, ⟨5, _⟩ => ⟨S50x50000, .f32⟩
  | .hbm, ⟨6, _⟩ => ⟨S_, .f32⟩
  | .hbm, ⟨7, _⟩ => ⟨S50, .f32⟩
  | .hbm, ⟨8, _⟩ => ⟨S1x50000x64, .f32⟩
  | .hbm, ⟨9, _⟩ => ⟨S50000x64, .f32⟩
  | .hbm, ⟨10, _⟩ => ⟨S50x64, .f32⟩
  | .hbm, ⟨11, _⟩ => ⟨S50x1, .f32⟩
  | .hbm, ⟨12, _⟩ => ⟨S50x64, .f32⟩
  | .hbm, ⟨13, _⟩ => ⟨S50x64, .f32⟩
  | .hbm, ⟨14, _⟩ => ⟨S1x50x64, .f32⟩
  | .hbm, ⟨15, _⟩ => ⟨S32x50x64, .f32⟩
  | _, _ => ⟨S32x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S_S50x50000 : S_.BroadcastsInDim S50x50000 (![] : Fin 0 → Fin S50x50000.rank)
  reducesTo_S50x50000_S50_d1 : S50x50000.ReducesTo [1] S50
  h_S_ : 0 < S_.numel
  slices_S32x50000x64_S1x50000x64_0_0_0 : S32x50000x64.Slices ![0, 0, 0] S1x50000x64
  shapeCasts_S1x50000x64_S50000x64 : S1x50000x64.ShapeCasts S50000x64
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  bcast_S50x64_S1x50x64_1_2 : S50x64.BroadcastsInDim S1x50x64 (![1, 2] : Fin 2 → Fin S1x50x64.rank)
  bcast_S1x50x64_S32x50x64_0_1_2 : S1x50x64.BroadcastsInDim S32x50x64 (![0, 1, 2] : Fin 3 → Fin S32x50x64.rank)
  dot_S50x50000_S50000x64_S50x64_1_0_0_1_n_n_wf : DotDims.WF S50x50000 S50000x64 S50x64 [1] [0] [0] [1] [] []

variable [Facts₀]

def dot_S50x50000_S50000x64_S50x64_1_0_0_1_n_n : DotDims S50x50000 S50000x64 S50x64 where
  lhsContracting := [1]
  rhsContracting := [0]
  lhsNonContracting := [0]
  rhsNonContracting := [1]
  lhsBatch := []
  rhsBatch := []
  wf := dot_S50x50000_S50000x64_S50x64_1_0_0_1_n_n_wf

class Facts : Prop extends Facts₀ where

variable [Facts]
-- ==== Proof.PoolBits.StepFns.lean ====
/-
  Masked mean pooling, one grid point at a time.  The grid is 2 x 4: the first coordinate is the half of the
  voxel axis, the second the tile inside the half, so point (p, v) works on the 6400 voxels of tile 4p + v.
  A point adds to two running accumulators kept across the four points of a half: the per-cluster member
  COUNT (the lane sum of the masked 0/1 membership of the tile) and the per-cluster, per-channel SUM (the product
  of that membership matrix with the tile of features).  The first point of a half starts both from zero;
  the last point of a half copies them to the half's output blocks.
  This module names the two branch conditions and the accumulators' step as functions of what the point loads.
-/
import proofs.«176787_j51694226375164_2_alg».proof.Proof.Gen.Kernel.Frame
import proofs.«176787_j51694226375164_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its half (its second coordinate is 0): the accumulators restart from zero. -/
abbrev atFirst (i : grid0.Coords) : Prop :=
  (Scalar.cmpi .ne (Scalar.extui (Scalar.cmpi .eq (BitVec.ofNat 32 (i 1).val) 0#32)) 0#32) = 1#1
/-- The point is the last of its half (its second coordinate is 3): the accumulators are copied out. -/
abbrev atLast (i : grid0.Coords) : Prop := k0_cond2 i = 1#1

/-- The count accumulator after a point: what it held plus the tile's masked membership summed over the tile's voxels. -/
def cntStep (i : grid0.Coords) (mem : Vec F S50x6400 .i32) (cnt : Vec F S50x1 .f32) : Vec F S50x1 .f32 :=
  k0_pay7 i mem cnt
/-- The sum accumulator after a point: what it held plus the masked membership matrix times the tile of features. -/
def accStep (i : grid0.Coords) (mem : Vec F S50x6400 .i32) (feat : Vec F S1x6400x64 .f32) (acc : Vec F S50x64 .f32) :
    Vec F S50x64 .f32 :=
  k0_pay1 (k0_pay8 i mem feat acc)
/-- The zero the count restarts from, -/
def cntZero : Vec F S50x1 .f32 := k0_pay5
/-- and the zero the sum restarts from. -/
def accZero : Vec F S50x64 .f32 := k0_pay4
/-- The count as the half's output block takes it (a leading unit axis added), -/
def cntOut (cnt : Vec F S50x1 .f32) : Vec F S1x50x1 .f32 := k0_pay3 cnt
/-- and the sum likewise. -/
def accOut (acc : Vec F S50x64 .f32) : Vec F S1x50x64 .f32 := k0_pay2 acc

/-- The offsets of every access of the body are zero: each load and store takes its whole buffer. -/
theorem off2 : (![0, 0] : Fin 2 → Nat) = fun _ => 0 := funext fun a => by fin_cases a <;> rfl
theorem off3 : (![0, 0, 0] : Fin 3 → Nat) = fun _ => 0 := funext fun a => by fin_cases a <;> rfl

end Cert.Kernel.Pool

end
-- ==== Proof.PoolBits.RunFirst.lean ====
/-
  The body at the first point of a half: it zeroes the two accumulators, then adds the tile's counts and sums to them.
  Whatever the accumulators held before is overwritten, so the result starts from zero.
-/
import proofs.«176787_j51694226375164_2_alg».proof.Proof.PoolBits.StepFns
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the first point of a half, from whole buffers at any contents, the body ends with the two input tiles and the two
    output blocks as they were and the accumulators at one step from zero. -/
theorem run_first (c : Dev nD) (i : grid0.Coords)
    (arg2 : Memref sig .tc .vmem S1x6400x64 .f32) (harg2 : arg2.IsWhole) (arg3 : Memref sig .tc .vmem S50x6400 .i32) (harg3 : arg3.IsWhole)
    (arg4 : Memref sig .tc .vmem S1x50x64 .f32) (harg4 : arg4.IsWhole) (arg5 : Memref sig .tc .vmem S1x50x1 .f32) (harg5 : arg5.IsWhole)
    (arg6 : Memref sig .tc .vmem S50x64 .f32) (harg6 : arg6.IsWhole) (arg7 : Memref sig .tc .vmem S50x1 .f32) (harg7 : arg7.IsWhole)
    (hc0 : atFirst i) (hc2 : ¬atLast i)
    (feat : Vec F S1x6400x64 .f32) (mem : Vec F S50x6400 .i32) (o2 : Vec F S1x50x64 .f32) (o3 : Vec F S1x50x1 .f32)
    (acc : Vec F S50x64 .f32) (cnt : Vec F S50x1 .f32) (E : Set ℕ) (K : PUnit → sProp 𝕄) :
    iprop(owns (c : Thread nD τ) arg2 fullShare feat ∗ owns (c : Thread nD τ) arg3 fullShare mem
        ∗ owns (c : Thread nD τ) arg4 fullShare o2 ∗ owns (c : Thread nD τ) arg5 fullShare o3
        ∗ owns (c : Thread nD τ) arg6 fullShare acc ∗ owns (c : Thread nD τ) arg7 fullShare cnt
        ∗ (iprop(owns (c : Thread nD τ) arg2 fullShare feat ∗ owns (c : Thread nD τ) arg3 fullShare mem
            ∗ owns (c : Thread nD τ) arg4 fullShare o2 ∗ owns (c : Thread nD τ) arg5 fullShare o3
            ∗ owns (c : Thread nD τ) arg6 fullShare (accStep i mem feat accZero)
            ∗ owns (c : Thread nD τ) arg7 fullShare (cntStep i mem cntZero)) -∗ K ⟨⟩))
      ⊢ wp frame (wpE (defs₀ (F := F)) Variants.none c none) E
          (cc0__pool_kernel i arg2 harg2 arg3 harg3 arg4 harg4 arg5 harg5 arg6 harg6 arg7 harg7) K := by
  simp only [cc0__pool_kernel_eq_skeleton]; unfold cc0__pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [View.read_writes_eq_canon _ _ _ (fun y => ⟨_, List.mem_cons_self .., View.mem_set_unit_zero off2 Facts₀.inb_S50x64_S50x64_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  · iexists _; isplitr; swap; · iexact H5
    ipureintro
    sl_unfold_words
    rw [View.read_writes_eq_canon _ _ _ (fun y => ⟨_, List.mem_cons_self .., View.mem_set_unit_zero off2 Facts₀.inb_S50x1_S50x1_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl

end Cert.Kernel.Pool

end
-- ==== Proof.PoolBits.RunMid.lean ====
/-
  The body at a point that is neither the first nor the last of its half: it loads the tile of memberships and the tile
  of features, adds the tile's counts and sums to the two accumulators, and touches nothing else.
-/
import proofs.«176787_j51694226375164_2_alg».proof.Proof.PoolBits.StepFns
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At such a point, from whole buffers at any contents, the body ends with the two input tiles and the two output
    blocks as they were and the accumulators advanced by the point's step. -/
theorem run_mid (c : Dev nD) (i : grid0.Coords)
    (arg2 : Memref sig .tc .vmem S1x6400x64 .f32) (harg2 : arg2.IsWhole) (arg3 : Memref sig .tc .vmem S50x6400 .i32) (harg3 : arg3.IsWhole)
    (arg4 : Memref sig .tc .vmem S1x50x64 .f32) (harg4 : arg4.IsWhole) (arg5 : Memref sig .tc .vmem S1x50x1 .f32) (harg5 : arg5.IsWhole)
    (arg6 : Memref sig .tc .vmem S50x64 .f32) (harg6 : arg6.IsWhole) (arg7 : Memref sig .tc .vmem S50x1 .f32) (harg7 : arg7.IsWhole)
    (hc0 : ¬atFirst i) (hc2 : ¬atLast i)
    (feat : Vec F S1x6400x64 .f32) (mem : Vec F S50x6400 .i32) (o2 : Vec F S1x50x64 .f32) (o3 : Vec F S1x50x1 .f32)
    (acc : Vec F S50x64 .f32) (cnt : Vec F S50x1 .f32) (E : Set ℕ) (K : PUnit → sProp 𝕄) :
    iprop(owns (c : Thread nD τ) arg2 fullShare feat ∗ owns (c : Thread nD τ) arg3 fullShare mem
        ∗ owns (c : Thread nD τ) arg4 fullShare o2 ∗ owns (c : Thread nD τ) arg5 fullShare o3
        ∗ owns (c : Thread nD τ) arg6 fullShare acc ∗ owns (c : Thread nD τ) arg7 fullShare cnt
        ∗ (iprop(owns (c : Thread nD τ) arg2 fullShare feat ∗ owns (c : Thread nD τ) arg3 fullShare mem
            ∗ owns (c : Thread nD τ) arg4 fullShare o2 ∗ owns (c : Thread nD τ) arg5 fullShare o3
            ∗ owns (c : Thread nD τ) arg6 fullShare (accStep i mem feat acc)
            ∗ owns (c : Thread nD τ) arg7 fullShare (cntStep i mem cnt)) -∗ K ⟨⟩))
      ⊢ wp frame (wpE (defs₀ (F := F)) Variants.none c none) E
          (cc0__pool_kernel i arg2 harg2 arg3 harg3 arg4 harg4 arg5 harg5 arg6 harg6 arg7 harg7) K := by
  simp only [cc0__pool_kernel_eq_skeleton]; unfold cc0__pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_eq_canon _ _ _ (fun y => ⟨_, List.mem_singleton_self _, View.mem_set_unit_zero off2 Facts₀.inb_S50x64_S50x64_0_0 y⟩),
      View.canon_unit_zero off2]
    sl_unfold_words
    simp only [View.readAt_eq_ld, harg2.read_unread, harg3.read_unread, harg6.read_unread,
      View.ld_unit_zero (S := S1x6400x64) off3, View.ld_unit_zero (S := S50x6400) off2, View.ld_unit_zero (S := S50x64) off2]
    rfl
  · iexists _; isplitr; swap; · iexact H5
    ipureintro
    rw [View.read_writes_eq_canon _ _ _ (fun y => ⟨_, List.mem_singleton_self _, View.mem_set_unit_zero off2 Facts₀.inb_S50x1_S50x1_0_0 y⟩),
      View.canon_unit_zero off2]
    simp only [View.readAt_eq_ld, harg3.read_unread, harg7.read_unread,
      View.ld_unit_zero (S := S50x6400) off2, View.ld_unit_zero (S := S50x1) off2]
    rfl

end Cert.Kernel.Pool

end
-- ==== Proof.PoolBits.RunLast.lean ====
/-
  The body at the last point of a half: it adds the tile's counts and sums to the accumulators and then copies both
  accumulators, each with a leading unit axis added, to the half's output blocks.
-/
import proofs.«176787_j51694226375164_2_alg».proof.Proof.PoolBits.StepFns
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last point of a half, from whole buffers at any contents, the body ends with the two input tiles as they were,
    the accumulators advanced by the point's step, and the output blocks holding the advanced accumulators. -/
theorem run_last (c : Dev nD) (i : grid0.Coords)
    (arg2 : Memref sig .tc .vmem S1x6400x64 .f32) (harg2 : arg2.IsWhole) (arg3 : Memref sig .tc .vmem S50x6400 .i32) (harg3 : arg3.IsWhole)
    (arg4 : Memref sig .tc .vmem S1x50x64 .f32) (harg4 : arg4.IsWhole) (arg5 : Memref sig .tc .vmem S1x50x1 .f32) (harg5 : arg5.IsWhole)
    (arg6 : Memref sig .tc .vmem S50x64 .f32) (harg6 : arg6.IsWhole) (arg7 : Memref sig .tc .vmem S50x1 .f32) (harg7 : arg7.IsWhole)
    (hc0 : ¬atFirst i) (hc2 : atLast i)
    (feat : Vec F S1x6400x64 .f32) (mem : Vec F S50x6400 .i32) (o2 : Vec F S1x50x64 .f32) (o3 : Vec F S1x50x1 .f32)
    (acc : Vec F S50x64 .f32) (cnt : Vec F S50x1 .f32) (E : Set ℕ) (K : PUnit → sProp 𝕄) :
    iprop(owns (c : Thread nD τ) arg2 fullShare feat ∗ owns (c : Thread nD τ) arg3 fullShare mem
        ∗ owns (c : Thread nD τ) arg4 fullShare o2 ∗ owns (c : Thread nD τ) arg5 fullShare o3
        ∗ owns (c : Thread nD τ) arg6 fullShare acc ∗ owns (c : Thread nD τ) arg7 fullShare cnt
        ∗ (iprop(owns (c : Thread nD τ) arg2 fullShare feat ∗ owns (c : Thread nD τ) arg3 fullShare mem
            ∗ owns (c : Thread nD τ) arg4 fullShare (accOut (accStep i mem feat acc)) ∗ owns (c : Thread nD τ) arg5 fullShare (cntOut (cntStep i mem cnt))
            ∗ owns (c : Thread nD τ) arg6 fullShare (accStep i mem feat acc)
            ∗ owns (c : Thread nD τ) arg7 fullShare (cntStep i mem cnt)) -∗ K ⟨⟩))
      ⊢ wp frame (wpE (defs₀ (F := F)) Variants.none c none) E
          (cc0__pool_kernel i arg2 harg2 arg3 harg3 arg4 harg4 arg5 harg5 arg6 harg6 arg7 harg7) K := by
  simp only [cc0__pool_kernel_eq_skeleton]; unfold cc0__pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.read_writes_eq_canon _ _ _ (fun y => ⟨_, List.mem_cons_self .., View.mem_set_unit_zero off3 Facts₀.inb_S1x50x64_S1x50x64_0_0_0 y⟩),
      View.canon_cons_unit_zero off3]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  isplitl [H3]
  · iexists _; isplitr; swap; · iexact H3
    ipureintro
    sl_unfold_words
    rw [View.read_writes_eq_canon _ _ _ (fun y => ⟨_, List.mem_cons_self .., View.mem_set_unit_zero off3 Facts₀.inb_S1x50x1_S1x50x1_0_0_0 y⟩),
      View.canon_cons_unit_zero off3]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  isplitl [H4]
  · iexists _; isplitr; swap; · iexact H4
    ipureintro
    sl_unfold_words
    rw [View.read_writes_eq_canon _ _ _ (fun y => ⟨_, List.mem_cons_self .., View.mem_set_unit_zero off2 Facts₀.inb_S50x64_S50x64_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  · iexists _; isplitr; swap; · iexact H5
    ipureintro
    sl_unfold_words
    rw [View.read_writes_eq_canon _ _ _ (fun y => ⟨_, List.mem_cons_self .., View.mem_set_unit_zero off2 Facts₀.inb_S50x1_S50x1_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl

end Cert.Kernel.Pool

end
-- ==== Proof.PoolBits.Point.lean ====
/-
  The body at grid point t (t = 4p + v, the v-th tile of half p), the three control cases joined.
  The first point of a half is t ≡ 0 (mod 4), the last t ≡ 3 (mod 4).  Writing acc, cnt for what the two
  accumulators hold when the point starts, the point leaves
      acc' = step(tile t; if t ≡ 0 then 0 else acc),    cnt' likewise,
  and the half's output blocks at acc', cnt' if t ≡ 3 and untouched otherwise.
  The output windows are idle exactly at the points t ≢ 3; the two input windows are never idle, and their last
  blocks overhang the voxel axis (8 · 6400 > 50000), so only the leading part of their buffers is ever stated.
-/
import proofs.«176787_j51694226375164_2_alg».proof.Proof.PoolBits.RunFirst
import proofs.«176787_j51694226375164_2_alg».proof.Proof.PoolBits.RunMid
import proofs.«176787_j51694226375164_2_alg».proof.Proof.PoolBits.RunLast
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its half exactly when t ≡ 0 (mod 4), -/
theorem atFirst_iff : ∀ t : Fin cfg0.N, atFirst (grid0.coords t) ↔ t.val % 4 = 0 :=
  (by decide +kernel : ∀ t : Fin grid0.N, atFirst (grid0.coords t) ↔ t.val % 4 = 0)
/-- and the last exactly when t ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-- The input windows are never idle. -/
theorem live_feat : ∀ t : Fin cfg0.N, cfg0.idle 0 (grid0.coords t) = false := by decide +kernel
theorem live_mem : ∀ t : Fin cfg0.N, cfg0.idle 1 (grid0.coords t) = false := by decide +kernel
/-- The output windows are idle away from the last point of a half, and live at it; -/
theorem idle_sum : ∀ t : Fin cfg0.N, ¬t.val % 4 = 3 → cfg0.idle 2 (grid0.coords t) = true := by decide +kernel
theorem idle_count : ∀ t : Fin cfg0.N, ¬t.val % 4 = 3 → cfg0.idle 3 (grid0.coords t) = true := by decide +kernel
theorem live_sum : ∀ t : Fin cfg0.N, t.val % 4 = 3 → cfg0.idle 2 (grid0.coords t) = false := by decide +kernel
theorem live_count : ∀ t : Fin cfg0.N, t.val % 4 = 3 → cfg0.idle 3 (grid0.coords t) = false := by decide +kernel
/-- they are written back exactly there. -/
theorem noflush_sum : ∀ t : Fin cfg0.N, ¬t.val % 4 = 3 → (cfg0.win 2).flush t = false := by decide +kernel
theorem noflush_count : ∀ t : Fin cfg0.N, ¬t.val % 4 = 3 → (cfg0.win 3).flush t = false := by decide +kernel

/-- The current staging buffer of each window at point t, and that it is a whole buffer. -/
abbrev bufFeat (t : Fin cfg0.N) : Memref sig .tc .vmem S1x6400x64 .f32 := win0_0.stage (cfg0.slots t 0)
abbrev wholeFeat (t : Fin cfg0.N) : (bufFeat t).IsWhole := hstage0_0 ((cfg0.slots t 0).cast nbuf0_0)
abbrev bufMem (t : Fin cfg0.N) : Memref sig .tc .vmem S50x6400 .i32 := win0_1.stage (cfg0.slots t 1)
abbrev wholeMem (t : Fin cfg0.N) : (bufMem t).IsWhole := hstage0_1 ((cfg0.slots t 1).cast nbuf0_1)
abbrev bufSum (t : Fin cfg0.N) : Memref sig .tc .vmem S1x50x64 .f32 := win0_2.stage (cfg0.slots t 2)
abbrev wholeSum (t : Fin cfg0.N) : (bufSum t).IsWhole := hstage0_2 ((cfg0.slots t 2).cast nbuf0_2)
abbrev bufCount (t : Fin cfg0.N) : Memref sig .tc .vmem S1x50x1 .f32 := win0_3.stage (cfg0.slots t 3)
abbrev wholeCount (t : Fin cfg0.N) : (bufCount t).IsWhole := hstage0_3 ((cfg0.slots t 3).cast nbuf0_3)
/-- The two accumulators: scratch buffers of the kernel's own, kept across the points. -/
abbrev bufAcc : Memref sig .tc .vmem S50x64 .f32 := Memref.whole cc0_scratch0
abbrev bufCnt : Memref sig .tc .vmem S50x1 .f32 := Memref.whole cc0_scratch1

/-- What the region hands the body besides its windows: the two accumulators at some contents and the generator
    register at some state. -/
theorem region_inv_eq (c : Dev nD) :
    (Pipeline.ΦA spec0 c : sProp 𝕄)
      = iprop(iprop((∃ d, owns (c : Thread nD τ) bufAcc fullShare d) ∗ (∃ d, owns (c : Thread nD τ) bufCnt fullShare d)) ∗ (∃ r, prngReg c r)) := by
  unfold Pipeline.ΦA; rw [scopedRest0_eq]; simp only [bufAcc, bufCnt, owns_whole]; try rfl

/-- The sum accumulator after point t, from the tiles the point loads and what the accumulator held; -/
def accAfter (t : Fin cfg0.N) (mem : Vec F S50x6400 .i32) (feat : Vec F S1x6400x64 .f32) (acc : Vec F S50x64 .f32) : Vec F S50x64 .f32 :=
  accStep (grid0.coords t) mem feat (if t.val % 4 = 0 then accZero else acc)
/-- the count accumulator likewise; -/
def cntAfter (t : Fin cfg0.N) (mem : Vec F S50x6400 .i32) (cnt : Vec F S50x1 .f32) : Vec F S50x1 .f32 :=
  cntStep (grid0.coords t) mem (if t.val % 4 = 0 then cntZero else cnt)
/-- the half's sum block after point t: the new accumulator at the half's last point, else what it held; -/
def sumAfter (t : Fin cfg0.N) (mem : Vec F S50x6400 .i32) (feat : Vec F S1x6400x64 .f32) (acc : Vec F S50x64 .f32)
    (o2 : Vec F S1x50x64 .f32) : Vec F S1x50x64 .f32 :=
  if t.val % 4 = 3 then accOut (accAfter t mem feat acc) else o2
/-- and the half's count block. -/
def countAfter (t : Fin cfg0.N) (mem : Vec F S50x6400 .i32) (cnt : Vec F S50x1 .f32) (o3 : Vec F S1x50x1 .f32) : Vec F S1x50x1 .f32 :=
  if t.val % 4 = 3 then cntOut (cntAfter t mem cnt) else o3

/-- The body at point t, from its six buffers at any contents: the input tiles stay, the accumulators and the output
    blocks end as named above. -/
theorem point_run (c : Dev nD) (t : Fin cfg0.N)
    (feat : Vec F S1x6400x64 .f32) (mem : Vec F S50x6400 .i32) (o2 : Vec F S1x50x64 .f32) (o3 : Vec F S1x50x1 .f32)
    (acc : Vec F S50x64 .f32) (cnt : Vec F S50x1 .f32) (K : PUnit → sProp 𝕄) :
    iprop(owns (c : Thread nD τ) (bufFeat t) fullShare feat ∗ owns (c : Thread nD τ) (bufMem t) fullShare mem
        ∗ owns (c : Thread nD τ) (bufSum t) fullShare o2 ∗ owns (c : Thread nD τ) (bufCount t) fullShare o3
        ∗ owns (c : Thread nD τ) bufAcc fullShare acc ∗ owns (c : Thread nD τ) bufCnt fullShare cnt
        ∗ (iprop(owns (c : Thread nD τ) (bufFeat t) fullShare feat ∗ owns (c : Thread nD τ) (bufMem t) fullShare mem
            ∗ owns (c : Thread nD τ) (bufSum t) fullShare (sumAfter t mem feat acc o2)
            ∗ owns (c : Thread nD τ) (bufCount t) fullShare (countAfter t mem cnt o3)
            ∗ owns (c : Thread nD τ) bufAcc fullShare (accAfter t mem feat acc)
            ∗ owns (c : Thread nD τ) bufCnt fullShare (cntAfter t mem cnt)) -∗ K ⟨⟩))
      ⊢ wp frame (wpE (defs₀ (F := F)) Variants.none c none) Set.univ (bodyAt0 t) K := by
  have hN : t.val < 8 := lt_of_lt_of_eq t.isLt (show cfg0.N = 8 from N_0)
  by_cases h0 : t.val % 4 = 0
  · have h3 : ¬t.val % 4 = 3 := by omega
    have e1 : accAfter t mem feat acc = accStep (grid0.coords t) mem feat accZero := by unfold accAfter; rw [if_pos h0]
    have e2 : cntAfter t mem cnt = cntStep (grid0.coords t) mem cntZero := by unfold cntAfter; rw [if_pos h0]
    have e3 : sumAfter t mem feat acc o2 = o2 := by unfold sumAfter; rw [if_neg h3]
    have e4 : countAfter t mem cnt o3 = o3 := by unfold countAfter; rw [if_neg h3]
    rw [e3, e4, e1, e2]
    exact run_first c (grid0.coords t) (bufFeat t) (wholeFeat t) (bufMem t) (wholeMem t) (bufSum t) (wholeSum t)
      (bufCount t) (wholeCount t) bufAcc (Memref.isWhole_whole _) bufCnt (Memref.isWhole_whole _)
      ((atFirst_iff t).mpr h0) (fun h => h3 ((atLast_iff t).mp h)) feat mem o2 o3 acc cnt Set.univ K
  · have e1 : accAfter t mem feat acc = accStep (grid0.coords t) mem feat acc := by unfold accAfter; rw [if_neg h0]
    have e2 : cntAfter t mem cnt = cntStep (grid0.coords t) mem cnt := by unfold cntAfter; rw [if_neg h0]
    by_cases h3 : t.val % 4 = 3
    · have e3 : sumAfter t mem feat acc o2 = accOut (accStep (grid0.coords t) mem feat acc) := by
        unfold sumAfter; rw [if_pos h3, e1]
      have e4 : countAfter t mem cnt o3 = cntOut (cntStep (grid0.coords t) mem cnt) := by
        unfold countAfter; rw [if_pos h3, e2]
      rw [e3, e4, e1, e2]
      exact run_last c (grid0.coords t) (bufFeat t) (wholeFeat t) (bufMem t) (wholeMem t) (bufSum t) (wholeSum t)
        (bufCount t) (wholeCount t) bufAcc (Memref.isWhole_whole _) bufCnt (Memref.isWhole_whole _)
        (fun h => h0 ((atFirst_iff t).mp h)) ((atLast_iff t).mpr h3) feat mem o2 o3 acc cnt Set.univ K
    · have e3 : sumAfter t mem feat acc o2 = o2 := by unfold sumAfter; rw [if_neg h3]
      have e4 : countAfter t mem cnt o3 = o3 := by unfold countAfter; rw [if_neg h3]
      rw [e3, e4, e1, e2]
      exact run_mid c (grid0.coords t) (bufFeat t) (wholeFeat t) (bufMem t) (wholeMem t) (bufSum t) (wholeSum t)
        (bufCount t) (wholeCount t) bufAcc (Memref.isWhole_whole _) bufCnt (Memref.isWhole_whole _)
        (fun h => h0 ((atFirst_iff t).mp h)) (fun h => h3 ((atLast_iff t).mp h)) feat mem o2 o3 acc cnt Set.univ K

end Cert.Kernel.Pool

end
-- ==== Proof.PoolBits.Forget.lean ====
/-
  The frame of the pooling program with nothing said of what it computes: every weakly fair execution ends, nothing
  faults, and the two argument arrays end as they began.
  Only the input windows are described: at every point each is fetched, so its buffer holds the tile's part inside the
  array and, past the end of the voxel axis (the eighth tile overhangs it by 1200 voxels), words nothing names; the body
  only reads them.  What the body leaves in the accumulators and in the halves' output blocks is left unnamed: with
  unnamed words in the overhang no closed form for it is available, and the frame does not need one.
-/
import proofs.«176787_j51694226375164_2_alg».proof.Proof.PoolBits.Point
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is stated: the two outputs. -/
def outs : Fin 4 → Bool := fun | 0 => false | 1 => false | 2 => true | 3 => true | ⟨_ + 4, h⟩ => absurd h (Nat.not_lt.2 (Nat.le_add_left _ _))

/-- Per core: the arrays as the region finds them; after the body each input's buffer at its tile (a filler past the
    array's end that nothing reads); the outputs unnamed; the region's own invariant; full shares; nothing owed. -/
def fdats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => win0_1.fill (grid0.coords t) (fun _ => Classical.arbitrary _) (iblk m c 1 t)
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

/-- Each input's buffer, just fetched, holds its tile inside the array and anything past its end. -/
theorem fbefore_feat (c : Dev nD) (t : Fin cfg0.N) (d) :
    (fdats m 0 c).before 0 t d = win0_0.fill (grid0.coords t) d (iblk m c 0 t) := by
  rw [(fdats m 0 c).before_fetched 0 t (fetch0_0 t) d]
  unfold Dat.fetched Dat.blockOf iblk
  rw [fA_eq m c 0]
theorem fbefore_mem (c : Dev nD) (t : Fin cfg0.N) (d) :
    (fdats m 0 c).before 1 t d = win0_1.fill (grid0.coords t) d (iblk m c 1 t) := by
  rw [(fdats m 0 c).before_fetched 1 t (fetch0_1 t) d]
  unfold Dat.fetched Dat.blockOf iblk
  rw [fA_eq m c 1]
/-- The part inside the array of what the body leaves there is the tile again. -/
theorem fcut_feat (c : Dev nD) (t : Fin cfg0.N) : win0_0.cut (grid0.coords t) ((fdats m 0 c).after 0 t) = iblk m c 0 t := by
  dsimp only [fdats]; exact win0_0.cut_fill _ _ _
theorem fcut_mem (c : Dev nD) (t : Fin cfg0.N) : win0_1.cut (grid0.coords t) ((fdats m 0 c).after 1 t) = iblk m c 1 t := by
  dsimp only [fdats]; exact win0_1.cut_fill _ _ _

/-- What the body is called with at point t, window by window, -/
def fpre (c : Dev nD) (t : Fin cfg0.N) : sProp 𝕄 :=
  iprop((fdats m 0 c).Φ t.castSucc ∗ (fdats m 0 c).owesAt () t.castSucc
    ∗ (∃ d, owns (c : Thread nD τ) (bufFeat t) fullShare ((fdats m 0 c).before 0 t d))
    ∗ (∃ d, owns (c : Thread nD τ) (bufMem t) fullShare ((fdats m 0 c).before 1 t d))
    ∗ (∃ X, owns (c : Thread nD τ) (bufSum t) fullShare X)
    ∗ (∃ X, owns (c : Thread nD τ) (bufCount t) fullShare X))
/-- and what it returns. -/
def fpost (c : Dev nD) (t : Fin cfg0.N) : sProp 𝕄 :=
  iprop((fdats m 0 c).Φ t.succ ∗ (fdats m 0 c).owesAt () t.succ
    ∗ (∃ d, owns (c : Thread nD τ) (bufFeat t) fullShare (win0_0.fill (grid0.coords t) d (win0_0.cut (grid0.coords t) ((fdats m 0 c).after 0 t))))
    ∗ (∃ d, owns (c : Thread nD τ) (bufMem t) fullShare (win0_1.fill (grid0.coords t) d (win0_1.cut (grid0.coords t) ((fdats m 0 c).after 1 t))))
    ∗ (∃ X, owns (c : Thread nD τ) (bufSum t) fullShare X)
    ∗ (∃ X, owns (c : Thread nD τ) (bufCount t) fullShare X))

/-- The body at any point: the inputs go in and come out as fetched, the invariant lends the accumulators and takes them
    back at whatever the point made of them, and so for the outputs' buffers. -/
theorem fsound (c : Dev nD) (t : Fin cfg0.N) :
    fpre m c t ⊢ wp frame (wpE (defs₀ (F := F)) Variants.none c none) Set.univ (bodyAt0 t) (fun _ => fpost m c t) := by
  unfold fpre fpost
  simp only [fbefore_feat, fbefore_mem]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, region_inv_eq]
  iintro ⟨⟨⟨⟨%a, HA⟩, ⟨%b, HB⟩⟩, Hg⟩, Ho, ⟨%d0, H0⟩, ⟨%d1, H1⟩, ⟨%x2, H2⟩, ⟨%x3, H3⟩⟩
  iapply (point_run (F := F) c t _ _ x2 x3 a b _)
  isplitl [H0]; · iexact H0
  isplitl [H1]; · iexact H1
  isplitl [H2]; · iexact H2
  isplitl [H3]; · iexact H3
  isplitl [HA]; · iexact HA
  isplitl [HB]; · iexact HB
  iintro ⟨H0, H1, H2, H3, HA, HB⟩
  isplitl [HA HB Hg]
  · isplitl [HA HB]
    · isplitl [HA]
      · iexists _; iexact HA
      · iexists _; iexact HB
    · iexact Hg
  isplitl [Ho]; · iexact Ho
  rw [fcut_feat m c t, fcut_mem m c t]
  isplitl [H0]; · iexists d0; iexact H0
  isplitl [H1]; · iexists d1; iexact H1
  isplitl [H2]; · iexists _; iexact H2
  iexists _; iexact H3

/-- The body obligation at every point, the outputs forgotten. -/
theorem fbody (c : Dev nD) : Pipeline.BodyObligationLoose (fdats (F := F) m 0 c) (defs₀ (F := F)) Variants.none () Set.univ outs := fun t => by
  rw [bigSep_W0, bigSep_W0]
  exact fsound m c t

set_option backward.isDefEq.respectTransparency.types false in
/-- The run: every weakly fair execution of the program ends, the input arrays as the region found them. -/
theorem frun : θ_run defs (onTc (τ := τ) (main (F := F))) (s₀ m ρ)
    (Pipeline.RDat.FramePostR (cfgs 0) (fun c => (fdats m 0 c).toRForget outs) Finset.univ (fun c b => V0 m c (Proc.devRef .tc b))) :=
  Pipeline.RDat.θ_run_frame_around_T cfgs (0 : Fin 1) launch0 defs₀ Variants.none (fun c => (fdats m 0 c).toRForget outs) Finset.univ m ρ main
    (hbody := fun c => (fbody m c).toRForget) (hshare := fun c => ((fdats m 0 c).toRForget outs).share_full fun _ => rfl)
    (howed := fun _ _ => rfl) (V₀ := V0 m) (opss := [hostOps1]) (hsub := sfx_sub) (hfresh := sfx_fresh) (hkeep := sfx_keeps)
    (hT := fun _ _ _ _ _ _ => Finset.mem_univ _)
    (hmain := hmain m Variants.none) (hA := fA_eq m) (hΦ := fun _ _ => rfl)

/-- The frame: the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((fdats m 0 c).toRForget_arrAt_iff (fgt := outs) (w := 0) rfl _ _).mp ((h c).1 0)).trans
        (((fdats m 0 c).arrAt_in 0 rfl _).trans ((fA_eq m c 0).trans (V_main_arg0 m c))),
     (((fdats m 0 c).toRForget_arrAt_iff (fgt := outs) (w := 1) rfl _ _).mp ((h c).1 1)).trans
        (((fdats m 0 c).arrAt_in 1 rfl _).trans ((fA_eq m c 1).trans (V_main_arg1 m c)))⟩) (frun m ρ)

end Cert.Kernel.Pool

end
-- ==== Proof.Pool.StepFns.lean ====
/-
  Masked mean pooling, one grid point at a time.  The grid is 2 x 4: the first coordinate is the half of the
  voxel axis, the second the tile inside the half, so point (p, v) works on the 6400 voxels of tile 4p + v.
  A point adds to two running accumulators kept across the four points of a half: the per-cluster member
  COUNT (the lane sum of the masked 0/1 membership of the tile) and the per-cluster, per-channel SUM (the product
  of that membership matrix with the tile of features).  The first point of a half starts both from zero;
  the last point of a half copies them to the half's output blocks.
  This module names the two branch conditions and the accumulators' step as functions of what the point loads.
-/
import proofs.«176787_j51694226375164_2_alg».proof.Proof.Gen.KernelIdeal.Frame
import proofs.«176787_j51694226375164_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its half (its second coordinate is 0): the accumulators restart from zero. -/
abbrev atFirst (i : grid0.Coords) : Prop :=
  (Scalar.cmpi .ne (Scalar.extui (Scalar.cmpi .eq (BitVec.ofNat 32 (i 1).val) 0#32)) 0#32) = 1#1
/-- The point is the last of its half (its second coordinate is 3): the accumulators are copied out. -/
abbrev atLast (i : grid0.Coords) : Prop := k0_cond2 i = 1#1

/-- The count accumulator after a point: what it held plus the tile's masked membership summed over the tile's voxels. -/
def cntStep (i : grid0.Coords) (mem : Vec F S50x6400 .i32) (cnt : Vec F S50x1 .f32) : Vec F S50x1 .f32 :=
  k0_pay7 i mem cnt
/-- The sum accumulator after a point: what it held plus the masked membership matrix times the tile of features. -/
def accStep (i : grid0.Coords) (mem : Vec F S50x6400 .i32) (feat : Vec F S1x6400x64 .f32) (acc : Vec F S50x64 .f32) :
    Vec F S50x64 .f32 :=
  k0_pay1 (k0_pay8 i mem feat acc)
/-- The zero the count restarts from, -/
def cntZero : Vec F S50x1 .f32 := k0_pay5
/-- and the zero the sum restarts from. -/
def accZero : Vec F S50x64 .f32 := k0_pay4
/-- The count as the half's output block takes it (a leading unit axis added), -/
def cntOut (cnt : Vec F S50x1 .f32) : Vec F S1x50x1 .f32 := k0_pay3 cnt
/-- and the sum likewise. -/
def accOut (acc : Vec F S50x64 .f32) : Vec F S1x50x64 .f32 := k0_pay2 acc

/-- The offsets of every access of the body are zero: each load and store takes its whole buffer. -/
theorem off2 : (![0, 0] : Fin 2 → Nat) = fun _ => 0 := funext fun a => by fin_cases a <;> rfl
theorem off3 : (![0, 0, 0] : Fin 3 → Nat) = fun _ => 0 := funext fun a => by fin_cases a <;> rfl

end Cert.KernelIdeal.Pool

end
-- ==== Proof.Mean.Mask.lean ====
/-
  The masked membership of one tile, entry by entry, over the extended reals.
  Point (p, v) of the grid works on tile T = 4p + v, whose voxel l (l < 6400) is voxel T·6400 + l of the array.  The body
  forms, for cluster k and voxel l of the tile,
      mask(k, l) = [T·6400 + l < 50000] · [cluster word (k, l) = 1],
  a 0/1 value: the position test is what makes the eighth tile's overhang (voxels 50000 … 51199, which hold words
  nothing names) contribute nothing.  The position is computed in 32-bit words; no product or sum here reaches 2^31,
  so the words' signed comparison is the comparison of the naturals.
-/
import proofs.«176787_j51694226375164_2_alg».proof.Proof.Gen.KernelIdeal.Skeleton
import proofs.«176787_j51694226375164_2_alg».proof.Proof.Pool.StepFns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mean

open Cert.KernelIdeal Cert.KernelIdeal.Gen Cert.KernelIdeal.Pool
open Idealize.ShloMosaic Idealize.ShloMosaic.ValueIdx

/-- The 0/1 membership of a cluster word: 1 exactly when the word is 1. -/
def ind (x : BitVec 32) : EReal := if x = 1#32 then 1 else 0

/-- The tile a grid point works on: four tiles per half. -/
def tileOf (i : grid0.Coords) : ℕ := (i 0).val * 4 + (i 1).val

/-- The tile's voxel l, as the body computes its position in 32-bit words, lies inside the array exactly when
    T·6400 + l < 50000 over the naturals. -/
theorem pos_slt (a0 a1 l : ℕ) (h0 : a0 < 2) (h1 : a1 < 4) (hl : l < 6400) :
    (IntOp.addi (Scalar.muli (Scalar.addi (Scalar.muli (BitVec.ofNat 32 a0) 4#32) (BitVec.ofNat 32 a1)) 6400#32)
        (BitVec.ofNat 32 l)).slt 50000#32 = decide ((a0 * 4 + a1) * 6400 + l < 50000) := by
  have hn : (IntOp.addi (Scalar.muli (Scalar.addi (Scalar.muli (BitVec.ofNat 32 a0) 4#32) (BitVec.ofNat 32 a1)) 6400#32)
      (BitVec.ofNat 32 l)).toNat = (a0 * 4 + a1) * 6400 + l := by
    simp only [IntOp.addi, Scalar.muli, Scalar.addi, IntOp.muli, BitVec.toNat_add, BitVec.toNat_mul, BitVec.toNat_ofNat]
    omega
  rw [BitVec.slt, BitVec.toInt_eq_toNat_of_lt (by rw [hn]; omega), hn]
  simp only [show (50000#32 : BitVec 32).toInt = 50000 from by decide]
  congr 1
  exact propext ⟨fun h => by exact_mod_cast h, fun h => by exact_mod_cast h⟩

/-- The membership word read as a float: the same 0/1 whether the comparison's bit is widened and read signed (the
    kernel) or read unsigned as it is (the reference). -/
theorem ind_signed (x : BitVec 32) :
    (FloatOps.sitofp (F := Ideal) .f32 ((IntOp.cmpi .eq x 1#32).setWidth 32) : EReal) = ind x := by
  unfold ind
  by_cases hx : x = 1#32
  · subst hx; simp [IntOp.cmpi, FloatOps.sitofp]
  · have : (x == 1#32) = false := by simpa using hx
    simp [IntOp.cmpi, this, hx, FloatOps.sitofp]
theorem ind_unsigned (x : BitVec 32) :
    (FloatOps.uitofp (F := Ideal) .f32 (IntOp.cmpi .eq x 1#32) : EReal) = ind x := by
  unfold ind
  by_cases hx : x = 1#32
  · subst hx; simp [IntOp.cmpi, FloatOps.uitofp]
  · have : (x == 1#32) = false := by simpa using hx
    simp [IntOp.cmpi, this, hx, FloatOps.uitofp]

/-- The masked membership at cluster k and voxel l of the tile. -/
theorem mask_apply (i : grid0.Coords) (mem : Vec Ideal S50x6400 .i32) (k : Fin 50) (l : Fin 6400) :
    k0_pay6 (F := Ideal) i mem (ix2 k l)
      = if tileOf i * 6400 + l.val < 50000 then ind (mem (ix2 k l)) else 0 := by
  have h0 : (i 0).val < 2 := (i 0).isLt
  have h1 : (i 1).val < 4 := (i 1).isLt
  unfold k0_pay6
  dsimp only [select, cmpi, addi, broadcast, extui, sitofp]
  rw [iota_single_apply]
  show Scalar.select (IntOp.cmpi .slt (IntOp.addi (Scalar.muli (Scalar.addi (Scalar.muli (BitVec.ofNat 32 (i 0).val) 4#32) (BitVec.ofNat 32 (i 1).val)) 6400#32) (BitVec.ofNat 32 l.val)) 50000#32)
      (FloatOps.sitofp (F := Ideal) .f32 ((IntOp.cmpi .eq (mem (ix2 k l)) 1#32).setWidth 32)) (Scalar.ofBits (F := Ideal) .f32 0x00000000#32) = _
  rw [ind_signed]
  unfold Scalar.select IntOp.cmpi
  dsimp only
  rw [pos_slt _ _ _ h0 h1 l.isLt]
  unfold tileOf
  by_cases hp : ((i 0).val * 4 + (i 1).val) * 6400 + l.val < 50000
  · rw [if_pos hp, decide_eq_true hp]; simp
  · rw [if_neg hp, decide_eq_false hp]; simp [Scalar.ofBits]

end Cert.KernelIdeal.Mean

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.Mean.Step.lean ====
/-
  One point's step of the two accumulators, entry by entry, over the extended reals.
  With mask(k, l) the tile's masked membership (0/1) and feat(l, c) the tile of features,
      sum'(k, c) = sum(k, c) + Σ_l mask(k, l) · feat(l, c)        (the matrix product: the contraction runs over the tile's voxels),
      cnt'(k)    = cnt(k)    + Σ_l mask(k, l)                     (the lane sum),
  a change of float format being the identity here.  The restart values are zero, and the output blocks are the
  accumulators with a leading unit axis.
-/
import proofs.«176787_j51694226375164_2_alg».proof.Proof.Mean.Mask
import proofs.«176787_j51694226375164_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mean

open Cert.KernelIdeal Cert.KernelIdeal.Gen Cert.KernelIdeal.Pool
open Idealize.ShloMosaic Idealize.ShloMosaic.ValueIdx

/-- The product's operand indices at output (k, c) and contraction coordinate l: (k, l) on the left, (l, c) on the right. -/
theorem dot_lhs0 (i : S50x64.Idx) (q : dot_S50x6400_S6400x64_S50x64_1_0_0_1_n_n.contr.Idx) : (dot_S50x6400_S6400x64_S50x64_1_0_0_1_n_n.lhsIdx i q 0).val = (i 0).val := by
  unfold DotDims.lhsIdx
  rw [dif_neg (show ¬(0 : Fin S50x6400.rank) ∈ dot_S50x6400_S6400x64_S50x64_1_0_0_1_n_n.lhsBatch by decide), dif_pos (show (0 : Fin S50x6400.rank) ∈ dot_S50x6400_S6400x64_S50x64_1_0_0_1_n_n.lhsNonContracting by decide)]
  rfl
theorem dot_lhs1 (i : S50x64.Idx) (q : dot_S50x6400_S6400x64_S50x64_1_0_0_1_n_n.contr.Idx) : (dot_S50x6400_S6400x64_S50x64_1_0_0_1_n_n.lhsIdx i q 1).val = (q ⟨0, by decide⟩).val :=
  dot_S50x6400_S6400x64_S50x64_1_0_0_1_n_n.lhsIdx_val_of_single rfl i q
theorem dot_rhs0 (i : S50x64.Idx) (q : dot_S50x6400_S6400x64_S50x64_1_0_0_1_n_n.contr.Idx) : (dot_S50x6400_S6400x64_S50x64_1_0_0_1_n_n.rhsIdx i q 0).val = (q ⟨0, by decide⟩).val :=
  dot_S50x6400_S6400x64_S50x64_1_0_0_1_n_n.rhsIdx_val_of_single rfl i q
theorem dot_rhs1 (i : S50x64.Idx) (q : dot_S50x6400_S6400x64_S50x64_1_0_0_1_n_n.contr.Idx) : (dot_S50x6400_S6400x64_S50x64_1_0_0_1_n_n.rhsIdx i q 1).val = (i 1).val := by
  unfold DotDims.rhsIdx
  rw [dif_neg (show ¬(1 : Fin S6400x64.rank) ∈ dot_S50x6400_S6400x64_S50x64_1_0_0_1_n_n.rhsBatch by decide), dif_pos (show (1 : Fin S6400x64.rank) ∈ dot_S50x6400_S6400x64_S50x64_1_0_0_1_n_n.rhsNonContracting by decide)]
  rfl

/-- The sum accumulator's step at (k, c). -/
theorem acc_apply (i : grid0.Coords) (mem : Vec Ideal S50x6400 .i32) (feat : Vec Ideal S1x6400x64 .f32) (acc : Vec Ideal S50x64 .f32)
    (k : Fin 50) (c : Fin 64) :
    accStep (F := Ideal) i mem feat acc (ix2 k c)
      = acc (ix2 k c) + ∑ l : Fin 6400, k0_pay6 (F := Ideal) i mem (ix2 k l) * feat (ix3 (0 : Fin 1) l c) := by
  unfold accStep k0_pay1 k0_pay8
  rw [shapeCast_self, addf_apply]
  congr 1
  simp only [matmul]
  rw [Ideal.matmul_constant_zero_apply, ← Equiv.sum_comp (ValueIdx.contrEquiv1 dot_S50x6400_S6400x64_S50x64_1_0_0_1_n_n 6400 rfl rfl).symm]
  refine Finset.sum_congr rfl fun l _ => ?_
  have hk := ValueIdx.contrEquiv1_symm_val dot_S50x6400_S6400x64_S50x64_1_0_0_1_n_n 6400 rfl rfl l
  have el : dot_S50x6400_S6400x64_S50x64_1_0_0_1_n_n.lhsIdx (ix2 k c) ((ValueIdx.contrEquiv1 dot_S50x6400_S6400x64_S50x64_1_0_0_1_n_n 6400 rfl rfl).symm l) = ix2 k l := funext fun a => Fin.ext (by
    match a with
    | ⟨0, _⟩ => exact dot_lhs0 _ _
    | ⟨1, _⟩ => exact (dot_lhs1 _ _).trans hk)
  have er : dot_S50x6400_S6400x64_S50x64_1_0_0_1_n_n.rhsIdx (ix2 k c) ((ValueIdx.contrEquiv1 dot_S50x6400_S6400x64_S50x64_1_0_0_1_n_n 6400 rfl rfl).symm l) = ix2 l c := funext fun a => Fin.ext (by
    match a with
    | ⟨0, _⟩ => exact (dot_rhs0 _ _).trans hk
    | ⟨1, _⟩ => exact dot_rhs1 _ _)
  rw [el, er, truncf_apply, truncf_apply, shapeCast_1ab_ab_apply]

/-- The count accumulator's step at k. -/
theorem cnt_apply (i : grid0.Coords) (mem : Vec Ideal S50x6400 .i32) (cnt : Vec Ideal S50x1 .f32) (k : Fin 50) :
    cntStep (F := Ideal) i mem cnt (ix2 k (0 : Fin 1))
      = cnt (ix2 k (0 : Fin 1)) + ∑ l : Fin 6400, k0_pay6 (F := Ideal) i mem (ix2 k l) := by
  unfold cntStep k0_pay7
  rw [shapeCast_self, addf_apply, Cert.LibKeepdims.shapeCast_col_apply]
  exact congrArg (cnt (ix2 k (0 : Fin 1)) + ·)
    (Cert.LibKeepdims.rowsum_apply (k0_pay6 (F := Ideal) i mem) 0x00000000#32 reduces_S50x6400_S50 (.inl rfl) rfl k)

/-- The restart values are zero. -/
theorem accZero_apply (j : S50x64.Idx) : accZero (F := Ideal) j = 0 := by
  unfold accZero k0_pay4; rw [shapeCast_self]; simp [broadcast, Scalar.ofBits]
theorem cntZero_apply (j : S50x1.Idx) : cntZero (F := Ideal) j = 0 := by
  unfold cntZero k0_pay5; rw [shapeCast_self]; simp [broadcast, Scalar.ofBits]

/-- The output blocks are the accumulators under a leading unit axis. -/
theorem accOut_apply (acc : Vec Ideal S50x64 .f32) (u : Fin 1) (k : Fin 50) (c : Fin 64) :
    accOut (F := Ideal) acc (ix3 u k c) = acc (ix2 k c) := by
  unfold accOut k0_pay2; exact shapeCast_ab_1ab_apply _ _ u k c
theorem cntOut_apply (cnt : Vec Ideal S50x1 .f32) (u : Fin 1) (k : Fin 50) (z : Fin 1) :
    cntOut (F := Ideal) cnt (ix3 u k z) = cnt (ix2 k z) := by
  unfold cntOut k0_pay3; exact shapeCast_ab_1ab_apply _ _ u k z

end Cert.KernelIdeal.Mean

end
-- ==== Proof.Pool.RunFirst.lean ====
/-
  The body at the first point of a half: it zeroes the two accumulators, then adds the tile's counts and sums to them.
  Whatever the accumulators held before is overwritten, so the result starts from zero.
-/
import proofs.«176787_j51694226375164_2_alg».proof.Proof.Pool.StepFns
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the first point of a half, from whole buffers at any contents, the body ends with the two input tiles and the two
    output blocks as they were and the accumulators at one step from zero. -/
theorem run_first (c : Dev nD) (i : grid0.Coords)
    (arg2 : Memref sig .tc .vmem S1x6400x64 .f32) (harg2 : arg2.IsWhole) (arg3 : Memref sig .tc .vmem S50x6400 .i32) (harg3 : arg3.IsWhole)
    (arg4 : Memref sig .tc .vmem S1x50x64 .f32) (harg4 : arg4.IsWhole) (arg5 : Memref sig .tc .vmem S1x50x1 .f32) (harg5 : arg5.IsWhole)
    (arg6 : Memref sig .tc .vmem S50x64 .f32) (harg6 : arg6.IsWhole) (arg7 : Memref sig .tc .vmem S50x1 .f32) (harg7 : arg7.IsWhole)
    (hc0 : atFirst i) (hc2 : ¬atLast i)
    (feat : Vec F S1x6400x64 .f32) (mem : Vec F S50x6400 .i32) (o2 : Vec F S1x50x64 .f32) (o3 : Vec F S1x50x1 .f32)
    (acc : Vec F S50x64 .f32) (cnt : Vec F S50x1 .f32) (E : Set ℕ) (K : PUnit → sProp 𝕄) :
    iprop(owns (c : Thread nD τ) arg2 fullShare feat ∗ owns (c : Thread nD τ) arg3 fullShare mem
        ∗ owns (c : Thread nD τ) arg4 fullShare o2 ∗ owns (c : Thread nD τ) arg5 fullShare o3
        ∗ owns (c : Thread nD τ) arg6 fullShare acc ∗ owns (c : Thread nD τ) arg7 fullShare cnt
        ∗ (iprop(owns (c : Thread nD τ) arg2 fullShare feat ∗ owns (c : Thread nD τ) arg3 fullShare mem
            ∗ owns (c : Thread nD τ) arg4 fullShare o2 ∗ owns (c : Thread nD τ) arg5 fullShare o3
            ∗ owns (c : Thread nD τ) arg6 fullShare (accStep i mem feat accZero)
            ∗ owns (c : Thread nD τ) arg7 fullShare (cntStep i mem cntZero)) -∗ K ⟨⟩))
      ⊢ wp frame (wpE (defs₀ (F := F)) Variants.none c none) E
          (cc0__pool_kernel i arg2 harg2 arg3 harg3 arg4 harg4 arg5 harg5 arg6 harg6 arg7 harg7) K := by
  simp only [cc0__pool_kernel_eq_skeleton]; unfold cc0__pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [View.read_writes_eq_canon _ _ _ (fun y => ⟨_, List.mem_cons_self .., View.mem_set_unit_zero off2 Facts₀.inb_S50x64_S50x64_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  · iexists _; isplitr; swap; · iexact H5
    ipureintro
    sl_unfold_words
    rw [View.read_writes_eq_canon _ _ _ (fun y => ⟨_, List.mem_cons_self .., View.mem_set_unit_zero off2 Facts₀.inb_S50x1_S50x1_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl

end Cert.KernelIdeal.Pool

end
-- ==== Proof.Pool.RunMid.lean ====
/-
  The body at a point that is neither the first nor the last of its half: it loads the tile of memberships and the tile
  of features, adds the tile's counts and sums to the two accumulators, and touches nothing else.
-/
import proofs.«176787_j51694226375164_2_alg».proof.Proof.Pool.StepFns
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At such a point, from whole buffers at any contents, the body ends with the two input tiles and the two output
    blocks as they were and the accumulators advanced by the point's step. -/
theorem run_mid (c : Dev nD) (i : grid0.Coords)
    (arg2 : Memref sig .tc .vmem S1x6400x64 .f32) (harg2 : arg2.IsWhole) (arg3 : Memref sig .tc .vmem S50x6400 .i32) (harg3 : arg3.IsWhole)
    (arg4 : Memref sig .tc .vmem S1x50x64 .f32) (harg4 : arg4.IsWhole) (arg5 : Memref sig .tc .vmem S1x50x1 .f32) (harg5 : arg5.IsWhole)
    (arg6 : Memref sig .tc .vmem S50x64 .f32) (harg6 : arg6.IsWhole) (arg7 : Memref sig .tc .vmem S50x1 .f32) (harg7 : arg7.IsWhole)
    (hc0 : ¬atFirst i) (hc2 : ¬atLast i)
    (feat : Vec F S1x6400x64 .f32) (mem : Vec F S50x6400 .i32) (o2 : Vec F S1x50x64 .f32) (o3 : Vec F S1x50x1 .f32)
    (acc : Vec F S50x64 .f32) (cnt : Vec F S50x1 .f32) (E : Set ℕ) (K : PUnit → sProp 𝕄) :
    iprop(owns (c : Thread nD τ) arg2 fullShare feat ∗ owns (c : Thread nD τ) arg3 fullShare mem
        ∗ owns (c : Thread nD τ) arg4 fullShare o2 ∗ owns (c : Thread nD τ) arg5 fullShare o3
        ∗ owns (c : Thread nD τ) arg6 fullShare acc ∗ owns (c : Thread nD τ) arg7 fullShare cnt
        ∗ (iprop(owns (c : Thread nD τ) arg2 fullShare feat ∗ owns (c : Thread nD τ) arg3 fullShare mem
            ∗ owns (c : Thread nD τ) arg4 fullShare o2 ∗ owns (c : Thread nD τ) arg5 fullShare o3
            ∗ owns (c : Thread nD τ) arg6 fullShare (accStep i mem feat acc)
            ∗ owns (c : Thread nD τ) arg7 fullShare (cntStep i mem cnt)) -∗ K ⟨⟩))
      ⊢ wp frame (wpE (defs₀ (F := F)) Variants.none c none) E
          (cc0__pool_kernel i arg2 harg2 arg3 harg3 arg4 harg4 arg5 harg5 arg6 harg6 arg7 harg7) K := by
  simp only [cc0__pool_kernel_eq_skeleton]; unfold cc0__pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_eq_canon _ _ _ (fun y => ⟨_, List.mem_singleton_self _, View.mem_set_unit_zero off2 Facts₀.inb_S50x64_S50x64_0_0 y⟩),
      View.canon_unit_zero off2]
    sl_unfold_words
    simp only [View.readAt_eq_ld, harg2.read_unread, harg3.read_unread, harg6.read_unread,
      View.ld_unit_zero (S := S1x6400x64) off3, View.ld_unit_zero (S := S50x6400) off2, View.ld_unit_zero (S := S50x64) off2]
    rfl
  · iexists _; isplitr; swap; · iexact H5
    ipureintro
    rw [View.read_writes_eq_canon _ _ _ (fun y => ⟨_, List.mem_singleton_self _, View.mem_set_unit_zero off2 Facts₀.inb_S50x1_S50x1_0_0 y⟩),
      View.canon_unit_zero off2]
    simp only [View.readAt_eq_ld, harg3.read_unread, harg7.read_unread,
      View.ld_unit_zero (S := S50x6400) off2, View.ld_unit_zero (S := S50x1) off2]
    rfl

end Cert.KernelIdeal.Pool

end
-- ==== Proof.Pool.RunLast.lean ====
/-
  The body at the last point of a half: it adds the tile's counts and sums to the accumulators and then copies both
  accumulators, each with a leading unit axis added, to the half's output blocks.
-/
import proofs.«176787_j51694226375164_2_alg».proof.Proof.Pool.StepFns
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last point of a half, from whole buffers at any contents, the body ends with the two input tiles as they were,
    the accumulators advanced by the point's step, and the output blocks holding the advanced accumulators. -/
theorem run_last (c : Dev nD) (i : grid0.Coords)
    (arg2 : Memref sig .tc .vmem S1x6400x64 .f32) (harg2 : arg2.IsWhole) (arg3 : Memref sig .tc .vmem S50x6400 .i32) (harg3 : arg3.IsWhole)
    (arg4 : Memref sig .tc .vmem S1x50x64 .f32) (harg4 : arg4.IsWhole) (arg5 : Memref sig .tc .vmem S1x50x1 .f32) (harg5 : arg5.IsWhole)
    (arg6 : Memref sig .tc .vmem S50x64 .f32) (harg6 : arg6.IsWhole) (arg7 : Memref sig .tc .vmem S50x1 .f32) (harg7 : arg7.IsWhole)
    (hc0 : ¬atFirst i) (hc2 : atLast i)
    (feat : Vec F S1x6400x64 .f32) (mem : Vec F S50x6400 .i32) (o2 : Vec F S1x50x64 .f32) (o3 : Vec F S1x50x1 .f32)
    (acc : Vec F S50x64 .f32) (cnt : Vec F S50x1 .f32) (E : Set ℕ) (K : PUnit → sProp 𝕄) :
    iprop(owns (c : Thread nD τ) arg2 fullShare feat ∗ owns (c : Thread nD τ) arg3 fullShare mem
        ∗ owns (c : Thread nD τ) arg4 fullShare o2 ∗ owns (c : Thread nD τ) arg5 fullShare o3
        ∗ owns (c : Thread nD τ) arg6 fullShare acc ∗ owns (c : Thread nD τ) arg7 fullShare cnt
        ∗ (iprop(owns (c : Thread nD τ) arg2 fullShare feat ∗ owns (c : Thread nD τ) arg3 fullShare mem
            ∗ owns (c : Thread nD τ) arg4 fullShare (accOut (accStep i mem feat acc)) ∗ owns (c : Thread nD τ) arg5 fullShare (cntOut (cntStep i mem cnt))
            ∗ owns (c : Thread nD τ) arg6 fullShare (accStep i mem feat acc)
            ∗ owns (c : Thread nD τ) arg7 fullShare (cntStep i mem cnt)) -∗ K ⟨⟩))
      ⊢ wp frame (wpE (defs₀ (F := F)) Variants.none c none) E
          (cc0__pool_kernel i arg2 harg2 arg3 harg3 arg4 harg4 arg5 harg5 arg6 harg6 arg7 harg7) K := by
  simp only [cc0__pool_kernel_eq_skeleton]; unfold cc0__pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.read_writes_eq_canon _ _ _ (fun y => ⟨_, List.mem_cons_self .., View.mem_set_unit_zero off3 Facts₀.inb_S1x50x64_S1x50x64_0_0_0 y⟩),
      View.canon_cons_unit_zero off3]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  isplitl [H3]
  · iexists _; isplitr; swap; · iexact H3
    ipureintro
    sl_unfold_words
    rw [View.read_writes_eq_canon _ _ _ (fun y => ⟨_, List.mem_cons_self .., View.mem_set_unit_zero off3 Facts₀.inb_S1x50x1_S1x50x1_0_0_0 y⟩),
      View.canon_cons_unit_zero off3]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  isplitl [H4]
  · iexists _; isplitr; swap; · iexact H4
    ipureintro
    sl_unfold_words
    rw [View.read_writes_eq_canon _ _ _ (fun y => ⟨_, List.mem_cons_self .., View.mem_set_unit_zero off2 Facts₀.inb_S50x64_S50x64_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl
  · iexists _; isplitr; swap; · iexact H5
    ipureintro
    sl_unfold_words
    rw [View.read_writes_eq_canon _ _ _ (fun y => ⟨_, List.mem_cons_self .., View.mem_set_unit_zero off2 Facts₀.inb_S50x1_S50x1_0_0 y⟩),
      View.canon_cons_unit_zero off2]
    simp only [View.readAt_eq_ld, harg2.read_unread, harg3.read_unread, harg6.read_unread, harg7.read_unread,
      View.ld_unit_zero (S := S1x6400x64) off3, View.ld_unit_zero (S := S50x6400) off2, View.ld_unit_zero (S := S50x64) off2,
      View.ld_unit_zero (S := S50x1) off2, View.readCov_unit_zero (S := S50x64) _ off2, View.readCov_unit_zero (S := S50x1) _ off2]
    rfl

end Cert.KernelIdeal.Pool

end
-- ==== Proof.Pool.Point.lean ====
/-
  The body at grid point t (t = 4p + v, the v-th tile of half p), the three control cases joined.
  The first point of a half is t ≡ 0 (mod 4), the last t ≡ 3 (mod 4).  Writing acc, cnt for what the two
  accumulators hold when the point starts, the point leaves
      acc' = step(tile t; if t ≡ 0 then 0 else acc),    cnt' likewise,
  and the half's output blocks at acc', cnt' if t ≡ 3 and untouched otherwise.
  The output windows are idle exactly at the points t ≢ 3; the two input windows are never idle, and their last
  blocks overhang the voxel axis (8 · 6400 > 50000), so only the leading part of their buffers is ever stated.
-/
import proofs.«176787_j51694226375164_2_alg».proof.Proof.Pool.RunFirst
import proofs.«176787_j51694226375164_2_alg».proof.Proof.Pool.RunMid
import proofs.«176787_j51694226375164_2_alg».proof.Proof.Pool.RunLast
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its half exactly when t ≡ 0 (mod 4), -/
theorem atFirst_iff : ∀ t : Fin cfg0.N, atFirst (grid0.coords t) ↔ t.val % 4 = 0 :=
  (by decide +kernel : ∀ t : Fin grid0.N, atFirst (grid0.coords t) ↔ t.val % 4 = 0)
/-- and the last exactly when t ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-- The input windows are never idle. -/
theorem live_feat : ∀ t : Fin cfg0.N, cfg0.idle 0 (grid0.coords t) = false := by decide +kernel
theorem live_mem : ∀ t : Fin cfg0.N, cfg0.idle 1 (grid0.coords t) = false := by decide +kernel
/-- The output windows are idle away from the last point of a half, and live at it; -/
theorem idle_sum : ∀ t : Fin cfg0.N, ¬t.val % 4 = 3 → cfg0.idle 2 (grid0.coords t) = true := by decide +kernel
theorem idle_count : ∀ t : Fin cfg0.N, ¬t.val % 4 = 3 → cfg0.idle 3 (grid0.coords t) = true := by decide +kernel
theorem live_sum : ∀ t : Fin cfg0.N, t.val % 4 = 3 → cfg0.idle 2 (grid0.coords t) = false := by decide +kernel
theorem live_count : ∀ t : Fin cfg0.N, t.val % 4 = 3 → cfg0.idle 3 (grid0.coords t) = false := by decide +kernel
/-- they are written back exactly there. -/
theorem noflush_sum : ∀ t : Fin cfg0.N, ¬t.val % 4 = 3 → (cfg0.win 2).flush t = false := by decide +kernel
theorem noflush_count : ∀ t : Fin cfg0.N, ¬t.val % 4 = 3 → (cfg0.win 3).flush t = false := by decide +kernel

/-- The current staging buffer of each window at point t, and that it is a whole buffer. -/
abbrev bufFeat (t : Fin cfg0.N) : Memref sig .tc .vmem S1x6400x64 .f32 := win0_0.stage (cfg0.slots t 0)
abbrev wholeFeat (t : Fin cfg0.N) : (bufFeat t).IsWhole := hstage0_0 ((cfg0.slots t 0).cast nbuf0_0)
abbrev bufMem (t : Fin cfg0.N) : Memref sig .tc .vmem S50x6400 .i32 := win0_1.stage (cfg0.slots t 1)
abbrev wholeMem (t : Fin cfg0.N) : (bufMem t).IsWhole := hstage0_1 ((cfg0.slots t 1).cast nbuf0_1)
abbrev bufSum (t : Fin cfg0.N) : Memref sig .tc .vmem S1x50x64 .f32 := win0_2.stage (cfg0.slots t 2)
abbrev wholeSum (t : Fin cfg0.N) : (bufSum t).IsWhole := hstage0_2 ((cfg0.slots t 2).cast nbuf0_2)
abbrev bufCount (t : Fin cfg0.N) : Memref sig .tc .vmem S1x50x1 .f32 := win0_3.stage (cfg0.slots t 3)
abbrev wholeCount (t : Fin cfg0.N) : (bufCount t).IsWhole := hstage0_3 ((cfg0.slots t 3).cast nbuf0_3)
/-- The two accumulators: scratch buffers of the kernel's own, kept across the points. -/
abbrev bufAcc : Memref sig .tc .vmem S50x64 .f32 := Memref.whole cc0_scratch0
abbrev bufCnt : Memref sig .tc .vmem S50x1 .f32 := Memref.whole cc0_scratch1

/-- What the region hands the body besides its windows: the two accumulators at some contents and the generator
    register at some state. -/
theorem region_inv_eq (c : Dev nD) :
    (Pipeline.ΦA spec0 c : sProp 𝕄)
      = iprop(iprop((∃ d, owns (c : Thread nD τ) bufAcc fullShare d) ∗ (∃ d, owns (c : Thread nD τ) bufCnt fullShare d)) ∗ (∃ r, prngReg c r)) := by
  unfold Pipeline.ΦA; rw [scopedRest0_eq]; simp only [bufAcc, bufCnt, owns_whole]; try rfl

/-- The sum accumulator after point t, from the tiles the point loads and what the accumulator held; -/
def accAfter (t : Fin cfg0.N) (mem : Vec F S50x6400 .i32) (feat : Vec F S1x6400x64 .f32) (acc : Vec F S50x64 .f32) : Vec F S50x64 .f32 :=
  accStep (grid0.coords t) mem feat (if t.val % 4 = 0 then accZero else acc)
/-- the count accumulator likewise; -/
def cntAfter (t : Fin cfg0.N) (mem : Vec F S50x6400 .i32) (cnt : Vec F S50x1 .f32) : Vec F S50x1 .f32 :=
  cntStep (grid0.coords t) mem (if t.val % 4 = 0 then cntZero else cnt)
/-- the half's sum block after point t: the new accumulator at the half's last point, else what it held; -/
def sumAfter (t : Fin cfg0.N) (mem : Vec F S50x6400 .i32) (feat : Vec F S1x6400x64 .f32) (acc : Vec F S50x64 .f32)
    (o2 : Vec F S1x50x64 .f32) : Vec F S1x50x64 .f32 :=
  if t.val % 4 = 3 then accOut (accAfter t mem feat acc) else o2
/-- and the half's count block. -/
def countAfter (t : Fin cfg0.N) (mem : Vec F S50x6400 .i32) (cnt : Vec F S50x1 .f32) (o3 : Vec F S1x50x1 .f32) : Vec F S1x50x1 .f32 :=
  if t.val % 4 = 3 then cntOut (cntAfter t mem cnt) else o3

/-- The body at point t, from its six buffers at any contents: the input tiles stay, the accumulators and the output
    blocks end as named above. -/
theorem point_run (c : Dev nD) (t : Fin cfg0.N)
    (feat : Vec F S1x6400x64 .f32) (mem : Vec F S50x6400 .i32) (o2 : Vec F S1x50x64 .f32) (o3 : Vec F S1x50x1 .f32)
    (acc : Vec F S50x64 .f32) (cnt : Vec F S50x1 .f32) (K : PUnit → sProp 𝕄) :
    iprop(owns (c : Thread nD τ) (bufFeat t) fullShare feat ∗ owns (c : Thread nD τ) (bufMem t) fullShare mem
        ∗ owns (c : Thread nD τ) (bufSum t) fullShare o2 ∗ owns (c : Thread nD τ) (bufCount t) fullShare o3
        ∗ owns (c : Thread nD τ) bufAcc fullShare acc ∗ owns (c : Thread nD τ) bufCnt fullShare cnt
        ∗ (iprop(owns (c : Thread nD τ) (bufFeat t) fullShare feat ∗ owns (c : Thread nD τ) (bufMem t) fullShare mem
            ∗ owns (c : Thread nD τ) (bufSum t) fullShare (sumAfter t mem feat acc o2)
            ∗ owns (c : Thread nD τ) (bufCount t) fullShare (countAfter t mem cnt o3)
            ∗ owns (c : Thread nD τ) bufAcc fullShare (accAfter t mem feat acc)
            ∗ owns (c : Thread nD τ) bufCnt fullShare (cntAfter t mem cnt)) -∗ K ⟨⟩))
      ⊢ wp frame (wpE (defs₀ (F := F)) Variants.none c none) Set.univ (bodyAt0 t) K := by
  have hN : t.val < 8 := lt_of_lt_of_eq t.isLt (show cfg0.N = 8 from N_0)
  by_cases h0 : t.val % 4 = 0
  · have h3 : ¬t.val % 4 = 3 := by omega
    have e1 : accAfter t mem feat acc = accStep (grid0.coords t) mem feat accZero := by unfold accAfter; rw [if_pos h0]
    have e2 : cntAfter t mem cnt = cntStep (grid0.coords t) mem cntZero := by unfold cntAfter; rw [if_pos h0]
    have e3 : sumAfter t mem feat acc o2 = o2 := by unfold sumAfter; rw [if_neg h3]
    have e4 : countAfter t mem cnt o3 = o3 := by unfold countAfter; rw [if_neg h3]
    rw [e3, e4, e1, e2]
    exact run_first c (grid0.coords t) (bufFeat t) (wholeFeat t) (bufMem t) (wholeMem t) (bufSum t) (wholeSum t)
      (bufCount t) (wholeCount t) bufAcc (Memref.isWhole_whole _) bufCnt (Memref.isWhole_whole _)
      ((atFirst_iff t).mpr h0) (fun h => h3 ((atLast_iff t).mp h)) feat mem o2 o3 acc cnt Set.univ K
  · have e1 : accAfter t mem feat acc = accStep (grid0.coords t) mem feat acc := by unfold accAfter; rw [if_neg h0]
    have e2 : cntAfter t mem cnt = cntStep (grid0.coords t) mem cnt := by unfold cntAfter; rw [if_neg h0]
    by_cases h3 : t.val % 4 = 3
    · have e3 : sumAfter t mem feat acc o2 = accOut (accStep (grid0.coords t) mem feat acc) := by
        unfold sumAfter; rw [if_pos h3, e1]
      have e4 : countAfter t mem cnt o3 = cntOut (cntStep (grid0.coords t) mem cnt) := by
        unfold countAfter; rw [if_pos h3, e2]
      rw [e3, e4, e1, e2]
      exact run_last c (grid0.coords t) (bufFeat t) (wholeFeat t) (bufMem t) (wholeMem t) (bufSum t) (wholeSum t)
        (bufCount t) (wholeCount t) bufAcc (Memref.isWhole_whole _) bufCnt (Memref.isWhole_whole _)
        (fun h => h0 ((atFirst_iff t).mp h)) ((atLast_iff t).mpr h3) feat mem o2 o3 acc cnt Set.univ K
    · have e3 : sumAfter t mem feat acc o2 = o2 := by unfold sumAfter; rw [if_neg h3]
      have e4 : countAfter t mem cnt o3 = o3 := by unfold countAfter; rw [if_neg h3]
      rw [e3, e4, e1, e2]
      exact run_mid c (grid0.coords t) (bufFeat t) (wholeFeat t) (bufMem t) (wholeMem t) (bufSum t) (wholeSum t)
        (bufCount t) (wholeCount t) bufAcc (Memref.isWhole_whole _) bufCnt (Memref.isWhole_whole _)
        (fun h => h0 ((atFirst_iff t).mp h)) (fun h => h3 ((atLast_iff t).mp h)) feat mem o2 o3 acc cnt Set.univ K

end Cert.KernelIdeal.Pool

end
-- ==== Proof.Mean.Tail.lean ====
/-
  The overhang drops out.  A fetched input buffer holds the tile's part inside the array on its leading part and words
  nothing names past it; only the eighth tile (point 7) has such a part: its voxels 5200 … 6399 are voxels 50000 … 51199.
  The mask is zero exactly there, and 0 · y = 0 for every extended real y, so the accumulators after a point do not
  depend on what fills the overhang: two fills of one tile give one step.
-/
import proofs.«176787_j51694226375164_2_alg».proof.Proof.Mean.Step
import proofs.«176787_j51694226375164_2_alg».proof.Proof.Pool.Point
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mean

open Cert.KernelIdeal Cert.KernelIdeal.Gen Cert.KernelIdeal.Pool
open Idealize.ShloMosaic Idealize.ShloMosaic.ValueIdx

/-- Grid point t works on tile t. -/
theorem tileOf_coords : ∀ t : Fin cfg0.N, tileOf (grid0.coords t) = t.val :=
  (by decide +kernel : ∀ t : Fin grid0.N, tileOf (grid0.coords t) = t.val)

/-- What a fetch of the membership window moves at point t: all 50 clusters, and 6400 voxels except at the last tile, 5200; -/
theorem moved_sizes_mem : ∀ t : Fin cfg0.N, win0_1.xsize (grid0.coords t) 0 = 50
    ∧ win0_1.xsize (grid0.coords t) 1 = (if t.val = 7 then 5200 else 6400) :=
  (by decide +kernel : ∀ t : Fin grid0.N, win0_1.xsize (grid0.coords t) 0 = 50
    ∧ win0_1.xsize (grid0.coords t) 1 = (if t.val = 7 then 5200 else 6400))
/-- of the feature window: the one batch row, the same voxels, all 64 channels. -/
theorem moved_sizes_feat : ∀ t : Fin cfg0.N, win0_0.xsize (grid0.coords t) 0 = 1
    ∧ win0_0.xsize (grid0.coords t) 1 = (if t.val = 7 then 5200 else 6400) ∧ win0_0.xsize (grid0.coords t) 2 = 64 :=
  (by decide +kernel : ∀ t : Fin grid0.N, win0_0.xsize (grid0.coords t) 0 = 1
    ∧ win0_0.xsize (grid0.coords t) 1 = (if t.val = 7 then 5200 else 6400) ∧ win0_0.xsize (grid0.coords t) 2 = 64)

/-- A voxel of the tile that lies inside the array is in the part the fetch moves: -/
theorem moved_mem (t : Fin cfg0.N) (k : Fin 50) (l : Fin 6400) (hv : t.val * 6400 + l.val < 50000) :
    win0_1.moved (grid0.coords t) (ix2 k l) = true := by
  have hN : t.val < 8 := lt_of_lt_of_eq t.isLt (show cfg0.N = 8 from N_0)
  obtain ⟨h0, h1⟩ := moved_sizes_mem t
  refine (win0_1.moved_iff _ _).mpr fun a => ?_
  match a with
  | ⟨0, _⟩ => show k.val < win0_1.xsize (grid0.coords t) 0; rw [h0]; exact k.isLt
  | ⟨1, _⟩ => show l.val < win0_1.xsize (grid0.coords t) 1; rw [h1]; have := l.isLt; split <;> omega
theorem moved_feat (t : Fin cfg0.N) (l : Fin 6400) (c : Fin 64) (hv : t.val * 6400 + l.val < 50000) :
    win0_0.moved (grid0.coords t) (ix3 (0 : Fin 1) l c) = true := by
  have hN : t.val < 8 := lt_of_lt_of_eq t.isLt (show cfg0.N = 8 from N_0)
  obtain ⟨h0, h1, h2⟩ := moved_sizes_feat t
  refine (win0_0.moved_iff _ _).mpr fun a => ?_
  match a with
  | ⟨0, _⟩ => show (0 : ℕ) < win0_0.xsize (grid0.coords t) 0; rw [h0]; exact Nat.one_pos
  | ⟨1, _⟩ => show l.val < win0_0.xsize (grid0.coords t) 1; rw [h1]; have := l.isLt; split <;> omega
  | ⟨2, _⟩ => show c.val < win0_0.xsize (grid0.coords t) 2; rw [h2]; exact c.isLt

/-- there, two fills of one tile agree. -/
theorem fill_mem_agree {α : Type} (t : Fin cfg0.N) (d d' : win0_1.block.Idx → α) (g : (win0_1.xblock (grid0.coords t)).Idx → α)
    (k : Fin 50) (l : Fin 6400) (hv : t.val * 6400 + l.val < 50000) :
    win0_1.fill (grid0.coords t) d g (ix2 k l) = win0_1.fill (grid0.coords t) d' g (ix2 k l) := by
  unfold Pipeline.Window.fill; rw [dif_pos (moved_mem t k l hv), dif_pos (moved_mem t k l hv)]
theorem fill_feat_agree {α : Type} (t : Fin cfg0.N) (d d' : win0_0.block.Idx → α) (g : (win0_0.xblock (grid0.coords t)).Idx → α)
    (l : Fin 6400) (c : Fin 64) (hv : t.val * 6400 + l.val < 50000) :
    win0_0.fill (grid0.coords t) d g (ix3 (0 : Fin 1) l c) = win0_0.fill (grid0.coords t) d' g (ix3 (0 : Fin 1) l c) := by
  unfold Pipeline.Window.fill; rw [dif_pos (moved_feat t l c hv), dif_pos (moved_feat t l c hv)]

/-- Two pairs of tiles that agree on the voxels inside the array give the same sum accumulator after point t; -/
theorem accAfter_congr (t : Fin cfg0.N) (mem1 mem2 : Vec Ideal S50x6400 .i32) (feat1 feat2 : Vec Ideal S1x6400x64 .f32)
    (acc : Vec Ideal S50x64 .f32)
    (hm : ∀ (k : Fin 50) (l : Fin 6400), t.val * 6400 + l.val < 50000 → mem1 (ix2 k l) = mem2 (ix2 k l))
    (hf : ∀ (l : Fin 6400) (c : Fin 64), t.val * 6400 + l.val < 50000 → feat1 (ix3 (0 : Fin 1) l c) = feat2 (ix3 (0 : Fin 1) l c)) :
    accAfter (F := Ideal) t mem1 feat1 acc = accAfter (F := Ideal) t mem2 feat2 acc := by
  unfold accAfter
  funext j
  obtain ⟨k, c, rfl⟩ : ∃ (k : Fin 50) (c : Fin 64), j = ix2 k c := ⟨j 0, j 1, eq_ix2 j⟩
  refine (acc_apply _ mem1 feat1 _ k c).trans (Eq.trans ?_ (acc_apply _ mem2 feat2 _ k c).symm)
  refine congrArg (_ + ·) (Finset.sum_congr rfl fun l _ => ?_)
  rw [mask_apply, mask_apply, tileOf_coords]
  by_cases hv : t.val * 6400 + l.val < 50000
  · rw [if_pos hv, if_pos hv, hm k l hv, hf l c hv]
  · rw [if_neg hv, if_neg hv, zero_mul, zero_mul]

/-- and the same count accumulator. -/
theorem cntAfter_congr (t : Fin cfg0.N) (mem1 mem2 : Vec Ideal S50x6400 .i32) (cnt : Vec Ideal S50x1 .f32)
    (hm : ∀ (k : Fin 50) (l : Fin 6400), t.val * 6400 + l.val < 50000 → mem1 (ix2 k l) = mem2 (ix2 k l)) :
    cntAfter (F := Ideal) t mem1 cnt = cntAfter (F := Ideal) t mem2 cnt := by
  unfold cntAfter
  funext j
  obtain ⟨k, rfl⟩ : ∃ (k : Fin 50), j = ix2 k (0 : Fin 1) :=
    ⟨j 0, (eq_ix2 j).trans (congrArg (ix2 (j 0)) (Fin.ext (by have := idx2_lt1 j; show (j 1).val = 0; omega)))⟩
  refine (cnt_apply _ mem1 _ k).trans (Eq.trans ?_ (cnt_apply _ mem2 _ k).symm)
  refine congrArg (_ + ·) (Finset.sum_congr rfl fun l _ => ?_)
  rw [mask_apply, mask_apply, tileOf_coords]
  by_cases hv : t.val * 6400 + l.val < 50000
  · rw [if_pos hv, if_pos hv, hm k l hv]
  · rw [if_neg hv, if_neg hv]

/-- So the accumulators after point t do not depend on what fills the inputs' overhang. -/
theorem accAfter_fill (t : Fin cfg0.N) (d1 d1' : win0_1.block.Idx → BitVec 32) (g1 : (win0_1.xblock (grid0.coords t)).Idx → BitVec 32)
    (d0 d0' : win0_0.block.Idx → EReal) (g0 : (win0_0.xblock (grid0.coords t)).Idx → EReal) (acc : Vec Ideal S50x64 .f32) :
    accAfter (F := Ideal) t (win0_1.fill (grid0.coords t) d1 g1) (win0_0.fill (grid0.coords t) d0 g0) acc
      = accAfter (F := Ideal) t (win0_1.fill (grid0.coords t) d1' g1) (win0_0.fill (grid0.coords t) d0' g0) acc :=
  accAfter_congr t _ _ _ _ acc (fun k l hv => fill_mem_agree t d1 d1' g1 k l hv) (fun l c hv => fill_feat_agree t d0 d0' g0 l c hv)
theorem cntAfter_fill (t : Fin cfg0.N) (d1 d1' : win0_1.block.Idx → BitVec 32) (g1 : (win0_1.xblock (grid0.coords t)).Idx → BitVec 32)
    (cnt : Vec Ideal S50x1 .f32) :
    cntAfter (F := Ideal) t (win0_1.fill (grid0.coords t) d1 g1) cnt = cntAfter (F := Ideal) t (win0_1.fill (grid0.coords t) d1' g1) cnt :=
  cntAfter_congr t _ _ cnt (fun k l hv => fill_mem_agree t d1 d1' g1 k l hv)

end Cert.KernelIdeal.Mean

end
-- ==== Proof.Mean.Exact.lean ====
/-
  The pooling program at the extended reals, with everything it computes named.
  After point t the sum accumulator holds accSeq t and the count accumulator cntSeq t, by recursion on the point: point t
  takes the tile's memberships and features (their part inside the array; zeros past it, which change nothing) and
  steps from zero if t ≡ 0 (mod 4), else from what point t − 1 left.  The region's invariant carries the two accumulators
  at these contents from point to point; the halves' output blocks are the accumulators (a leading unit axis added) at the
  points t ≡ 3 (mod 4), where they are written back, and are left as found elsewhere.
-/
import proofs.«176787_j51694226375164_2_alg».proof.Proof.Mean.Tail
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Mean

open Cert.KernelIdeal Cert.KernelIdeal.Gen Cert.KernelIdeal.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The tile of features at point t: the array's part, zeros past the array's end; -/
def featAt (c : Dev nD) (t : Fin cfg0.N) : Vec Ideal S1x6400x64 .f32 :=
  win0_0.fill (grid0.coords t) (fun _ => (0 : EReal)) (iblk m c 0 t)
/-- the tile of cluster words likewise. -/
def memAt (c : Dev nD) (t : Fin cfg0.N) : Vec Ideal S50x6400 .i32 :=
  win0_1.fill (grid0.coords t) (fun _ => (0#32 : BitVec 32)) (iblk m c 1 t)

/-- The sum accumulator after point n, -/
def accSeq (c : Dev nD) : (n : ℕ) → n < cfg0.N → Vec Ideal S50x64 .f32
  | 0, h => accAfter (F := Ideal) ⟨0, h⟩ (memAt m c ⟨0, h⟩) (featAt m c ⟨0, h⟩) accZero
  | n + 1, h => accAfter (F := Ideal) ⟨n + 1, h⟩ (memAt m c ⟨n + 1, h⟩) (featAt m c ⟨n + 1, h⟩) (accSeq c n (Nat.lt_of_succ_lt h))
/-- and the count accumulator. -/
def cntSeq (c : Dev nD) : (n : ℕ) → n < cfg0.N → Vec Ideal S50x1 .f32
  | 0, h => cntAfter (F := Ideal) ⟨0, h⟩ (memAt m c ⟨0, h⟩) cntZero
  | n + 1, h => cntAfter (F := Ideal) ⟨n + 1, h⟩ (memAt m c ⟨n + 1, h⟩) (cntSeq c n (Nat.lt_of_succ_lt h))

/-- The invariant before point n: at the start what the region hands over; afterwards the accumulators at what point
    n − 1 left, and the generator register at some state. -/
def PhiS (c : Dev nD) : (n : ℕ) → n ≤ cfg0.N → sProp 𝕄
  | 0, _ => Pipeline.ΦA spec0 c
  | n + 1, h => iprop(iprop(owns (c : Thread nD τ) bufAcc fullShare (accSeq m c n h)
      ∗ owns (c : Thread nD τ) bufCnt fullShare (cntSeq m c n h)) ∗ (∃ r, prngReg c r))

/-- The proof data of the one pipeline on core c. -/
def dats (_ : Fin 1) (c : Dev nD) : Dat τ (Elt Ideal) Unit ℕ (UR sig nD τ) ℕ cfg0 c where
  A w := V m c (Pipeline.arrRef spec0 w)
  after w t := match w with
    | ⟨0, _⟩ => featAt m c t
    | ⟨1, _⟩ => memAt m c t
    | ⟨2, _⟩ => accOut (F := Ideal) (accSeq m c t.val t.isLt)
    | ⟨3, _⟩ => cntOut (F := Ideal) (cntSeq m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_sum (c : Dev nD) (t : Fin cfg0.N) : (dats m 0 c).after 2 t = accOut (F := Ideal) (accSeq m c t.val t.isLt) := by
  dsimp only [dats]
theorem after_count (c : Dev nD) (t : Fin cfg0.N) : (dats m 0 c).after 3 t = cntOut (F := Ideal) (cntSeq m c t.val t.isLt) := by
  dsimp only [dats]

/-- Each input's buffer, just fetched, holds its tile inside the array and anything past its end. -/
theorem before_feat (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq m c 0]
theorem before_mem (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq m c 1]
/-- The part inside the array of what the body leaves there is the tile again. -/
theorem cut_feat (c : Dev nD) (t : Fin cfg0.N) : win0_0.cut (grid0.coords t) ((dats m 0 c).after 0 t) = iblk m c 0 t := by
  dsimp only [dats]; exact win0_0.cut_fill _ _ _
theorem cut_mem (c : Dev nD) (t : Fin cfg0.N) : win0_1.cut (grid0.coords t) ((dats m 0 c).after 1 t) = iblk m c 1 t := by
  dsimp only [dats]; exact win0_1.cut_fill _ _ _

/-- The accumulators' step at point t, from fetched buffers whatever fills their overhang, lands on the named sequence. -/
theorem accSeq_step (c : Dev nD) (t : Fin cfg0.N) (d0 : win0_0.block.Idx → EReal) (d1 : win0_1.block.Idx → BitVec 32)
    (a : Vec Ideal S50x64 .f32) (ha : ∀ h : t.val ≠ 0, a = accSeq m c (t.val - 1) (by have := t.isLt; omega)) :
    accAfter (F := Ideal) t (win0_1.fill (grid0.coords t) d1 (iblk m c 1 t)) (win0_0.fill (grid0.coords t) d0 (iblk m c 0 t)) a
      = accSeq m c t.val t.isLt := by
  rw [accAfter_fill t d1 (fun _ => (0#32 : BitVec 32)) (iblk m c 1 t) d0 (fun _ => (0 : EReal)) (iblk m c 0 t) a]
  obtain ⟨n, hn⟩ := t
  cases n with
  | zero =>
    show accAfter (F := Ideal) ⟨0, hn⟩ (memAt m c ⟨0, hn⟩) (featAt m c ⟨0, hn⟩) a = accAfter (F := Ideal) ⟨0, hn⟩ (memAt m c ⟨0, hn⟩) (featAt m c ⟨0, hn⟩) accZero
    unfold accAfter; rw [if_pos (by rfl), if_pos (by rfl)]
  | succ n =>
    rw [ha (Nat.succ_ne_zero n)]; rfl
theorem cntSeq_step (c : Dev nD) (t : Fin cfg0.N) (d1 : win0_1.block.Idx → BitVec 32)
    (b : Vec Ideal S50x1 .f32) (hb : ∀ h : t.val ≠ 0, b = cntSeq m c (t.val - 1) (by have := t.isLt; omega)) :
    cntAfter (F := Ideal) t (win0_1.fill (grid0.coords t) d1 (iblk m c 1 t)) b = cntSeq m c t.val t.isLt := by
  rw [cntAfter_fill t d1 (fun _ => (0#32 : BitVec 32)) (iblk m c 1 t) b]
  obtain ⟨n, hn⟩ := t
  cases n with
  | zero =>
    show cntAfter (F := Ideal) ⟨0, hn⟩ (memAt m c ⟨0, hn⟩) b = cntAfter (F := Ideal) ⟨0, hn⟩ (memAt m c ⟨0, hn⟩) cntZero
    unfold cntAfter; rw [if_pos (by rfl), if_pos (by rfl)]
  | succ n =>
    rw [hb (Nat.succ_ne_zero n)]; rfl

/-- The invariant before point t lends the two accumulators: at anything before the first point, else at what the point
    before left. -/
theorem phi_open (c : Dev nD) (t : Fin cfg0.N) :
    (dats m 0 c).Φ t.castSucc ⊢ (iprop(∃ a b, ⌜(∀ h : t.val ≠ 0, a = accSeq m c (t.val - 1) (by have := t.isLt; omega))
        ∧ (∀ h : t.val ≠ 0, b = cntSeq m c (t.val - 1) (by have := t.isLt; omega))⌝
      ∗ owns (c : Thread nD τ) bufAcc fullShare a ∗ owns (c : Thread nD τ) bufCnt fullShare b ∗ (∃ r, prngReg c r)) : sProp 𝕄) := by
  obtain ⟨n, hn⟩ := t
  cases n with
  | zero =>
    show Pipeline.ΦA spec0 c ⊢ _
    rw [region_inv_eq]
    iintro ⟨⟨⟨%a, HA⟩, ⟨%b, HB⟩⟩, Hg⟩
    iexists a; iexists b
    isplitr; · ipureintro; exact ⟨fun h => absurd rfl h, fun h => absurd rfl h⟩
    isplitl [HA]; · iexact HA
    isplitl [HB]; · iexact HB
    iexact Hg
  | succ n =>
    show iprop(iprop(owns (c : Thread nD τ) bufAcc fullShare (accSeq m c n _) ∗ owns (c : Thread nD τ) bufCnt fullShare (cntSeq m c n _)) ∗ (∃ r, prngReg c r)) ⊢ _
    iintro ⟨⟨HA, HB⟩, Hg⟩
    iexists _; iexists _
    isplitr; · ipureintro; exact ⟨fun _ => rfl, fun _ => rfl⟩
    isplitl [HA]; · iexact HA
    isplitl [HB]; · iexact HB
    iexact Hg

/-- What the body is called with at point t, window by window, -/
def epre (c : Dev nD) (t : Fin cfg0.N) : sProp 𝕄 :=
  iprop((dats m 0 c).Φ t.castSucc ∗ (dats m 0 c).owesAt () t.castSucc
    ∗ (∃ d, owns (c : Thread nD τ) (bufFeat t) fullShare ((dats m 0 c).before 0 t d))
    ∗ (∃ d, owns (c : Thread nD τ) (bufMem t) fullShare ((dats m 0 c).before 1 t d))
    ∗ (∃ d, owns (c : Thread nD τ) (bufSum t) fullShare ((dats m 0 c).before 2 t d))
    ∗ (∃ d, owns (c : Thread nD τ) (bufCount t) fullShare ((dats m 0 c).before 3 t d)))
/-- and what it returns. -/
def epost (c : Dev nD) (t : Fin cfg0.N) : sProp 𝕄 :=
  iprop((dats m 0 c).Φ t.succ ∗ (dats m 0 c).owesAt () t.succ
    ∗ (∃ d, owns (c : Thread nD τ) (bufFeat t) fullShare (win0_0.fill (grid0.coords t) d (win0_0.cut (grid0.coords t) ((dats m 0 c).after 0 t))))
    ∗ (∃ d, owns (c : Thread nD τ) (bufMem t) fullShare (win0_1.fill (grid0.coords t) d (win0_1.cut (grid0.coords t) ((dats m 0 c).after 1 t))))
    ∗ (dats m 0 c).leaves 2 t
    ∗ (dats m 0 c).leaves 3 t)

/-- The body at any point. -/
theorem esound (c : Dev nD) (t : Fin cfg0.N) :
    epre m c t ⊢ wp frame (wpE (defs₀ (F := Ideal)) Variants.none c none) Set.univ (bodyAt0 t) (fun _ => epost m c t) := by
  unfold epre epost
  simp only [before_feat, before_mem]
  rw [show (dats m 0 c).owesAt () t.succ = (dats m 0 c).owesAt () t.castSucc from rfl,
    show (dats m 0 c).Φ t.succ = iprop(iprop(owns (c : Thread nD τ) bufAcc fullShare (accSeq m c t.val t.isLt)
      ∗ owns (c : Thread nD τ) bufCnt fullShare (cntSeq m c t.val t.isLt)) ∗ (∃ r, prngReg c r)) from rfl]
  iintro ⟨HΦ, Ho, ⟨%d0, H0⟩, ⟨%d1, H1⟩, ⟨%d2, H2⟩, ⟨%d3, H3⟩⟩
  ihave HΦ' := (phi_open m c t) $$ HΦ
  icases HΦ' with ⟨%a, %b, %hab, HA, HB, Hg⟩
  iapply (point_run (F := Ideal) c t _ _ ((dats m 0 c).before 2 t d2) ((dats m 0 c).before 3 t d3) a b _)
  isplitl [H0]; · iexact H0
  isplitl [H1]; · iexact H1
  isplitl [H2]; · iexact H2
  isplitl [H3]; · iexact H3
  isplitl [HA]; · iexact HA
  isplitl [HB]; · iexact HB
  iintro ⟨H0, H1, H2, H3, HA, HB⟩
  rw [accSeq_step m c t d0 d1 a hab.1, cntSeq_step m c t d1 b hab.2, cut_feat m c t, cut_mem m c t]
  isplitl [HA HB Hg]
  · isplitl [HA HB]
    · isplitl [HA]
      · iexact HA
      · iexact HB
    · iexact Hg
  isplitl [Ho]; · iexact Ho
  isplitl [H0]; · iexists d0; iexact H0
  isplitl [H1]; · iexists d1; iexact H1
  by_cases h3 : t.val % 4 = 3
  · have l2 : (dats m 0 c).leaves 2 t = owns (c : Thread nD τ) (bufSum t) fullShare ((dats m 0 c).after 2 t) := by
      unfold Dat.leaves; rw [live_sum t h3]
    have l3 : (dats m 0 c).leaves 3 t = owns (c : Thread nD τ) (bufCount t) fullShare ((dats m 0 c).after 3 t) := by
      unfold Dat.leaves; rw [live_count t h3]
    rw [l2, l3, after_sum, after_count]
    have e2 : sumAfter (F := Ideal) t (win0_1.fill (grid0.coords t) d1 (iblk m c 1 t)) (win0_0.fill (grid0.coords t) d0 (iblk m c 0 t)) a ((dats m 0 c).before 2 t d2)
        = accOut (F := Ideal) (accSeq m c t.val t.isLt) := by
      unfold sumAfter; rw [if_pos h3, accSeq_step m c t d0 d1 a hab.1]
    have e3 : countAfter (F := Ideal) t (win0_1.fill (grid0.coords t) d1 (iblk m c 1 t)) b ((dats m 0 c).before 3 t d3)
        = cntOut (F := Ideal) (cntSeq m c t.val t.isLt) := by
      unfold countAfter; rw [if_pos h3, cntSeq_step m c t d1 b hab.2]
    rw [e2, e3]
    isplitl [H2]; · iexact H2
    iexact H3
  · rw [Dat.leaves_idle _ 2 t (idle_sum t h3) (noflush_sum t h3), Dat.leaves_idle _ 3 t (idle_count t h3) (noflush_count t h3)]
    have e2 : sumAfter (F := Ideal) t (win0_1.fill (grid0.coords t) d1 (iblk m c 1 t)) (win0_0.fill (grid0.coords t) d0 (iblk m c 0 t)) a ((dats m 0 c).before 2 t d2)
        = (dats m 0 c).before 2 t d2 := by unfold sumAfter; rw [if_neg h3]
    have e3 : countAfter (F := Ideal) t (win0_1.fill (grid0.coords t) d1 (iblk m c 1 t)) b ((dats m 0 c).before 3 t d3)
        = (dats m 0 c).before 3 t d3 := by unfold countAfter; rw [if_neg h3]
    rw [e2, e3]
    isplitl [H2]; · iexists d2; iexact H2
    iexists d3; iexact H3

/-- The body obligation at every point. -/
theorem ebody (c : Dev nD) : Pipeline.BodyObligationLoose (dats m 0 c) (defs₀ (F := Ideal)) Variants.none () Set.univ := fun t => by
  rw [bigSep_W0, bigSep_W0]
  exact esound m c t

/-- What the launch hands the region is the invariant before the first point, -/
theorem hin (c : Dev nD) : Pipeline.ΦA spec0 c ⊢ (dats m 0 c).Φ 0 := Idealize.SL.BI.Entails.refl _
/-- and after the last point the invariant gives it back, the accumulators' contents forgotten. -/
theorem hout (c : Dev nD) : (dats m 0 c).Φ (Fin.last cfg0.N) ⊢ Pipeline.ΦA spec0 c := by
  rw [show (dats m 0 c).Φ (Fin.last cfg0.N) = iprop(iprop(owns (c : Thread nD τ) bufAcc fullShare (accSeq m c 7 (by decide))
      ∗ owns (c : Thread nD τ) bufCnt fullShare (cntSeq m c 7 (by decide))) ∗ (∃ r, prngReg c r)) from rfl, region_inv_eq]
  iintro ⟨⟨HA, HB⟩, Hg⟩
  isplitl [HA HB]
  · isplitl [HA]
    · iexists _; iexact HA
    · iexists _; iexact HB
  iexact Hg

set_option backward.isDefEq.respectTransparency.types false in
/-- The run: every weakly fair execution ends, every array of the pipeline at what the proof data computes and every other
    buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := ebody m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the two argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Mean

end
-- ==== Proof.Mean.Elems.lean ====
/-
  The tiles, entry by entry.  Tile t of the membership array is its columns t·6400 … t·6400 + 6399 (all 50 rows), tile t of
  the features the same voxels of batch row 0 (all 64 channels): an entry of a tile that lies inside the array is the
  array's entry at voxel t·6400 + l.
-/
import proofs.«176787_j51694226375164_2_alg».proof.Proof.Mean.Exact
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Mean

open Cert.KernelIdeal Cert.KernelIdeal.Gen Cert.KernelIdeal.Pool
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Where the blocks sit: the membership window's block t is at row block 0, column block t; -/
theorem index_mem : ∀ t : Fin cfg0.N, win0_1.index t 0 = 0 ∧ win0_1.index t 1 = t.val :=
  (by decide +kernel : ∀ t : Fin grid0.N, win0_1.index t 0 = 0 ∧ win0_1.index t 1 = t.val)
/-- the feature window's at batch 0, voxel block t, channel block 0. -/
theorem index_feat : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- A cluster word of tile t inside the array is the array's word at voxel t·6400 + l. -/
theorem memAt_apply (c : Dev nD) (t : Fin cfg0.N) (k : Fin 50) (l : Fin 6400) (hv : t.val * 6400 + l.val < 50000) :
    memAt m c t (ix2 k l) = m ((c.tc : Thread nD τ).loc main_arg1) (ix2 k ⟨t.val * 6400 + l.val, hv⟩) := by
  obtain ⟨i0, i1⟩ := index_mem t
  unfold memAt Pipeline.Window.fill
  rw [dif_pos (moved_mem t k l hv)]
  unfold iblk
  rw [View.read_apply]
  show V m c main_arg1 _ = _
  rw [V_main_arg1]
  refine congrArg _ (funext fun a => Fin.ext ?_)
  match a with
  | ⟨0, _⟩ => show win0_1.index t 0 * 50 + 1 * k.val = k.val; rw [i0]; omega
  | ⟨1, _⟩ => show win0_1.index t 1 * 6400 + 1 * l.val = t.val * 6400 + l.val; rw [i1]; omega

/-- A feature of tile t inside the array is batch row 0's feature at voxel t·6400 + l. -/
theorem featAt_apply (c : Dev nD) (t : Fin cfg0.N) (l : Fin 6400) (ch : Fin 64) (hv : t.val * 6400 + l.val < 50000) :
    featAt m c t (ix3 (0 : Fin 1) l ch)
      = m ((c.tc : Thread nD τ).loc main_arg0) (ix3 (0 : Fin 32) ⟨t.val * 6400 + l.val, hv⟩ ch) := by
  obtain ⟨i0, i1, i2⟩ := index_feat t
  unfold featAt Pipeline.Window.fill
  rw [dif_pos (moved_feat t l ch hv)]
  unfold iblk
  rw [View.read_apply]
  show V m c main_arg0 _ = _
  rw [V_main_arg0]
  refine congrArg _ (funext fun a => Fin.ext ?_)
  match a with
  | ⟨0, _⟩ => show win0_0.index t 0 * 1 + 1 * 0 = 0; rw [i0]
  | ⟨1, _⟩ => show win0_0.index t 1 * 6400 + 1 * l.val = t.val * 6400 + l.val; rw [i1]; omega
  | ⟨2, _⟩ => show win0_0.index t 2 * 64 + 1 * ch.val = ch.val; rw [i2]; omega

end Cert.KernelIdeal.Mean

end
-- ==== Proof.Mean.Halves.lean ====
/-
  The accumulators in closed form.  Voxel v of the array contributes [cluster word (k, v) = 1] · x(0, v, c) to cluster k's sum in
  channel c and [cluster word (k, v) = 1] to its count; positions past the array's end contribute nothing.  A point adds its
  tile's total to what the accumulators held, starting from zero at the first point of a half; so at the last point of half p
  the accumulators hold the totals of tiles 4p, 4p + 1, 4p + 2, 4p + 3 added up.
-/
import proofs.«176787_j51694226375164_2_alg».proof.Proof.Mean.Elems
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Mean

open Cert.KernelIdeal Cert.KernelIdeal.Gen Cert.KernelIdeal.Pool
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Voxel v's contribution to cluster k's sum in channel ch (nothing past the array's end), -/
def sumTerm (c : Dev nD) (k : Fin 50) (ch : Fin 64) (v : ℕ) : EReal :=
  if h : v < 50000 then ind (m ((c.tc : Thread nD τ).loc main_arg1) (ix2 k ⟨v, h⟩))
    * m ((c.tc : Thread nD τ).loc main_arg0) (ix3 (0 : Fin 32) ⟨v, h⟩ ch) else 0
/-- and to its count. -/
def cntTerm (c : Dev nD) (k : Fin 50) (v : ℕ) : EReal :=
  if h : v < 50000 then ind (m ((c.tc : Thread nD τ).loc main_arg1) (ix2 k ⟨v, h⟩)) else 0
/-- Tile T's totals. -/
def tileSum (c : Dev nD) (k : Fin 50) (ch : Fin 64) (T : ℕ) : EReal := ∑ l : Fin 6400, sumTerm m c k ch (T * 6400 + l.val)
def tileCnt (c : Dev nD) (k : Fin 50) (T : ℕ) : EReal := ∑ l : Fin 6400, cntTerm m c k (T * 6400 + l.val)

/-- A point's step adds its tile's total. -/
theorem step_sum (c : Dev nD) (t : Fin cfg0.N) (acc : Vec Ideal S50x64 .f32) (k : Fin 50) (ch : Fin 64) :
    accStep (F := Ideal) (grid0.coords t) (memAt m c t) (featAt m c t) acc (ix2 k ch) = acc (ix2 k ch) + tileSum m c k ch t.val := by
  refine (acc_apply _ _ _ _ k ch).trans (congrArg (_ + ·) (Finset.sum_congr rfl fun l _ => ?_))
  rw [mask_apply, tileOf_coords]
  unfold sumTerm
  by_cases hv : t.val * 6400 + l.val < 50000
  · rw [if_pos hv, dif_pos hv, memAt_apply m c t k l hv, featAt_apply m c t l ch hv]
  · rw [if_neg hv, dif_neg hv, zero_mul]
theorem step_cnt (c : Dev nD) (t : Fin cfg0.N) (cnt : Vec Ideal S50x1 .f32) (k : Fin 50) :
    cntStep (F := Ideal) (grid0.coords t) (memAt m c t) cnt (ix2 k (0 : Fin 1)) = cnt (ix2 k (0 : Fin 1)) + tileCnt m c k t.val := by
  refine (cnt_apply _ _ _ k).trans (congrArg (_ + ·) (Finset.sum_congr rfl fun l _ => ?_))
  rw [mask_apply, tileOf_coords]
  unfold cntTerm
  by_cases hv : t.val * 6400 + l.val < 50000
  · rw [if_pos hv, dif_pos hv, memAt_apply m c t k l hv]
  · rw [if_neg hv, dif_neg hv]

/-- At the first point of a half the accumulators hold that tile's total; -/
theorem accSeq_first (c : Dev nD) (n : ℕ) (h : n < cfg0.N) (h0 : n % 4 = 0) (k : Fin 50) (ch : Fin 64) :
    accSeq m c n h (ix2 k ch) = tileSum m c k ch n := by
  cases n with
  | zero =>
    show accAfter (F := Ideal) ⟨0, h⟩ (memAt m c ⟨0, h⟩) (featAt m c ⟨0, h⟩) accZero (ix2 k ch) = _
    unfold accAfter; rw [if_pos h0, step_sum, accZero_apply, zero_add]
  | succ n' =>
    show accAfter (F := Ideal) ⟨n' + 1, h⟩ (memAt m c ⟨n' + 1, h⟩) (featAt m c ⟨n' + 1, h⟩) (accSeq m c n' _) (ix2 k ch) = _
    unfold accAfter; rw [if_pos h0, step_sum, accZero_apply, zero_add]
theorem cntSeq_first (c : Dev nD) (n : ℕ) (h : n < cfg0.N) (h0 : n % 4 = 0) (k : Fin 50) :
    cntSeq m c n h (ix2 k (0 : Fin 1)) = tileCnt m c k n := by
  cases n with
  | zero =>
    show cntAfter (F := Ideal) ⟨0, h⟩ (memAt m c ⟨0, h⟩) cntZero (ix2 k (0 : Fin 1)) = _
    unfold cntAfter; rw [if_pos h0, step_cnt, cntZero_apply, zero_add]
  | succ n' =>
    show cntAfter (F := Ideal) ⟨n' + 1, h⟩ (memAt m c ⟨n' + 1, h⟩) (cntSeq m c n' _) (ix2 k (0 : Fin 1)) = _
    unfold cntAfter; rw [if_pos h0, step_cnt, cntZero_apply, zero_add]

/-- at every other point, what the point before left plus that tile's total. -/
theorem accSeq_next (c : Dev nD) (n : ℕ) (hn : n ≠ 0) (h : n < cfg0.N) (h0 : ¬n % 4 = 0) (k : Fin 50) (ch : Fin 64) :
    accSeq m c n h (ix2 k ch) = accSeq m c (n - 1) (by omega) (ix2 k ch) + tileSum m c k ch n := by
  cases n with
  | zero => exact absurd rfl hn
  | succ n' =>
    show accAfter (F := Ideal) ⟨n' + 1, h⟩ (memAt m c ⟨n' + 1, h⟩) (featAt m c ⟨n' + 1, h⟩) (accSeq m c n' _) (ix2 k ch) = _
    unfold accAfter; rw [if_neg h0, step_sum]; rfl
theorem cntSeq_next (c : Dev nD) (n : ℕ) (hn : n ≠ 0) (h : n < cfg0.N) (h0 : ¬n % 4 = 0) (k : Fin 50) :
    cntSeq m c n h (ix2 k (0 : Fin 1)) = cntSeq m c (n - 1) (by omega) (ix2 k (0 : Fin 1)) + tileCnt m c k n := by
  cases n with
  | zero => exact absurd rfl hn
  | succ n' =>
    show cntAfter (F := Ideal) ⟨n' + 1, h⟩ (memAt m c ⟨n' + 1, h⟩) (cntSeq m c n' _) (ix2 k (0 : Fin 1)) = _
    unfold cntAfter; rw [if_neg h0, step_cnt]; rfl

/-- Half p's totals: its four tiles added up. -/
def halfSum (c : Dev nD) (p : ℕ) (k : Fin 50) (ch : Fin 64) : EReal :=
  tileSum m c k ch (4 * p) + tileSum m c k ch (4 * p + 1) + tileSum m c k ch (4 * p + 2) + tileSum m c k ch (4 * p + 3)
def halfCnt (c : Dev nD) (p : ℕ) (k : Fin 50) : EReal :=
  tileCnt m c k (4 * p) + tileCnt m c k (4 * p + 1) + tileCnt m c k (4 * p + 2) + tileCnt m c k (4 * p + 3)

/-- At the last point of a half the accumulators hold the half's totals. -/
theorem accSeq_last (c : Dev nD) (n : ℕ) (h : n < cfg0.N) (h3 : n % 4 = 3) (k : Fin 50) (ch : Fin 64) :
    accSeq m c n h (ix2 k ch) = halfSum m c (n / 4) k ch := by
  have h' : n < 8 := lt_of_lt_of_eq h (show cfg0.N = 8 from N_0)
  rcases (by omega : n = 3 ∨ n = 7) with rfl | rfl
  · rw [accSeq_next m c 3 (by decide) h (by decide), accSeq_next m c (3 - 1) (by decide) _ (by decide),
      accSeq_next m c (3 - 1 - 1) (by decide) _ (by decide), accSeq_first m c (3 - 1 - 1 - 1) _ (by decide)]
    rfl
  · rw [accSeq_next m c 7 (by decide) h (by decide), accSeq_next m c (7 - 1) (by decide) _ (by decide),
      accSeq_next m c (7 - 1 - 1) (by decide) _ (by decide), accSeq_first m c (7 - 1 - 1 - 1) _ (by decide)]
    rfl
theorem cntSeq_last (c : Dev nD) (n : ℕ) (h : n < cfg0.N) (h3 : n % 4 = 3) (k : Fin 50) :
    cntSeq m c n h (ix2 k (0 : Fin 1)) = halfCnt m c (n / 4) k := by
  have h' : n < 8 := lt_of_lt_of_eq h (show cfg0.N = 8 from N_0)
  rcases (by omega : n = 3 ∨ n = 7) with rfl | rfl
  · rw [cntSeq_next m c 3 (by decide) h (by decide), cntSeq_next m c (3 - 1) (by decide) _ (by decide),
      cntSeq_next m c (3 - 1 - 1) (by decide) _ (by decide), cntSeq_first m c (3 - 1 - 1 - 1) _ (by decide)]
    rfl
  · rw [cntSeq_next m c 7 (by decide) h (by decide), cntSeq_next m c (7 - 1) (by decide) _ (by decide),
      cntSeq_next m c (7 - 1 - 1) (by decide) _ (by decide), cntSeq_first m c (7 - 1 - 1 - 1) _ (by decide)]
    rfl

end Cert.KernelIdeal.Mean

end
-- ==== Proof.Mean.Arrays.lean ====
/-
  The two output arrays of the region after the run.  Half p's block of each (block index (p, 0, 0), the whole [50, 64] resp.
  [50, 1] slab) is written back once, at the half's last point 4p + 3, from the accumulators; the two blocks tile the arrays.
  So after the run the sums array holds at (p, k, c) half p's total for cluster k and channel c, and the counts array at
  (p, k, 0) half p's count for cluster k.
-/
import proofs.«176787_j51694226375164_2_alg».proof.Proof.Mean.Halves
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Mean

open Cert.KernelIdeal Cert.KernelIdeal.Gen Cert.KernelIdeal.Pool
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Point t's output blocks sit at half t / 4. -/
theorem index_sum : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)
theorem index_count : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- The sums array after the run, -/
def sums (c : Dev nD) : S2x50x64.Idx → EReal := fun i => halfSum m c (i 0).val (i 1) (i 2)
/-- and the counts array. -/
def counts (c : Dev nD) : S2x50x1.Idx → EReal := fun i => halfCnt m c (i 0).val (i 1)

/-- What the last point of a half writes back is that half's slab of the closed form, entry by entry. -/
theorem sum_at (c : Dev nD) (t : Fin cfg0.N) (h3 : t.val % 4 = 3) (y : S1x50x64.Idx) (i : S2x50x64.Idx)
    (e0 : (i 0).val = t.val / 4) (e1 : (i 1).val = (y 1).val) (e2 : (i 2).val = (y 2).val) :
    accOut (F := Ideal) (accSeq m c t.val t.isLt) y = sums m c i := by
  obtain ⟨u, k, ch, rfl⟩ : ∃ (u : Fin 1) (k : Fin 50) (ch : Fin 64), y = ix3 u k ch := ⟨y 0, y 1, y 2, eq_ix3 y⟩
  rw [accOut_apply, accSeq_last m c t.val t.isLt h3]
  unfold sums
  rw [e0, show i 1 = k from Fin.ext e1, show i 2 = ch from Fin.ext e2]
theorem count_at (c : Dev nD) (t : Fin cfg0.N) (h3 : t.val % 4 = 3) (y : S1x50x1.Idx) (i : S2x50x1.Idx)
    (e0 : (i 0).val = t.val / 4) (e1 : (i 1).val = (y 1).val) :
    cntOut (F := Ideal) (cntSeq m c t.val t.isLt) y = counts m c i := by
  obtain ⟨u, k, z, rfl⟩ : ∃ (u : Fin 1) (k : Fin 50) (z : Fin 1), y = ix3 u k z := ⟨y 0, y 1, y 2, eq_ix3 y⟩
  have hz : z = (0 : Fin 1) := Fin.ext (by have := z.isLt; show z.val = 0; omega)
  subst hz
  rw [cntOut_apply, cntSeq_last m c t.val t.isLt h3]
  unfold counts
  rw [e0, show i 1 = k from Fin.ext e1]

/-- So each write-back writes its block of the closed form. -/
theorem flushed_sum (c : Dev nD) (t : Fin cfg0.N) (hf : (cfg0.win 2).flush t = true) :
    (dats m 0 c).flushed 2 t = ((cfg0.win 2).blk t).view.read (Elt Ideal) (sums m c) := by
  have h3 : t.val % 4 = 3 := (flush0_2 t).mp hf
  obtain ⟨i0, i1, i2⟩ := index_sum t
  funext y
  rw [View.read_apply]
  show (dats m 0 c).after 2 t (win0_2.xinj (grid0.coords t) y) = _
  rw [after_sum]
  have y0 : (y 0).val < 1 := (y 0).isLt
  refine sum_at m c t h3 _ _ ?_ ?_ ?_
  · show win0_2.index t 0 * 1 + 1 * (y 0).val = t.val / 4; rw [i0]; omega
  · show win0_2.index t 1 * 50 + 1 * (y 1).val = (y 1).val; rw [i1]; omega
  · show win0_2.index t 2 * 64 + 1 * (y 2).val = (y 2).val; rw [i2]; omega
theorem flushed_count (c : Dev nD) (t : Fin cfg0.N) (hf : (cfg0.win 3).flush t = true) :
    (dats m 0 c).flushed 3 t = ((cfg0.win 3).blk t).view.read (Elt Ideal) (counts m c) := by
  have h3 : t.val % 4 = 3 := (flush0_3 t).mp hf
  obtain ⟨i0, i1, i2⟩ := index_count t
  funext y
  rw [View.read_apply]
  show (dats m 0 c).after 3 t (win0_3.xinj (grid0.coords t) y) = _
  rw [after_count]
  have y0 : (y 0).val < 1 := (y 0).isLt
  refine count_at m c t h3 _ _ ?_ ?_
  · show win0_3.index t 0 * 1 + 1 * (y 0).val = t.val / 4; rw [i0]; omega
  · show win0_3.index t 1 * 50 + 1 * (y 1).val = (y 1).val; rw [i1]; omega

/-- Every entry of the sums array lies in the block its half's last point writes back; -/
theorem cover_sum (i : S2x50x64.Idx) :
    ∃ t : Fin cfg0.N, (cfg0.win 2).flush t = true ∧ i ∈ ((cfg0.win 2).blk t).view.set := by
  have h0 : (i 0).val < 2 := (i 0).isLt
  have h1 : (i 1).val < 50 := (i 1).isLt
  have h2 : (i 2).val < 64 := (i 2).isLt
  have hN : cfg0.N = 8 := N_0
  have hT : 4 * (i 0).val + 3 < cfg0.N := by rw [hN]; omega
  refine ⟨⟨4 * (i 0).val + 3, hT⟩, (flush0_2 _).mpr (by show (4 * (i 0).val + 3) % 4 = 3; omega), ?_⟩
  obtain ⟨j0, j1, j2⟩ := index_sum ⟨4 * (i 0).val + 3, hT⟩
  show i ∈ ((View.whole main_v0_0).slice (win0_2.rect ⟨4 * (i 0).val + 3, hT⟩)).set
  rw [View.set_slice_whole, Rect.mem_set_unit]
  intro a
  match a with
  | ⟨0, _⟩ =>
    show win0_2.index _ 0 * 1 ≤ (i 0).val ∧ (i 0).val < win0_2.index _ 0 * 1 + 1
    rw [j0]; show (4 * (i 0).val + 3) / 4 * 1 ≤ (i 0).val ∧ (i 0).val < (4 * (i 0).val + 3) / 4 * 1 + 1; omega
  | ⟨1, _⟩ =>
    show win0_2.index _ 1 * 50 ≤ (i 1).val ∧ (i 1).val < win0_2.index _ 1 * 50 + 50
    rw [j1]; omega
  | ⟨2, _⟩ =>
    show win0_2.index _ 2 * 64 ≤ (i 2).val ∧ (i 2).val < win0_2.index _ 2 * 64 + 64
    rw [j2]; omega
/-- and so for the counts array. -/
theorem cover_count (i : S2x50x1.Idx) :
    ∃ t : Fin cfg0.N, (cfg0.win 3).flush t = true ∧ i ∈ ((cfg0.win 3).blk t).view.set := by
  have h0 : (i 0).val < 2 := (i 0).isLt
  have h1 : (i 1).val < 50 := (i 1).isLt
  have h2 : (i 2).val < 1 := (i 2).isLt
  have hN : cfg0.N = 8 := N_0
  have hT : 4 * (i 0).val + 3 < cfg0.N := by rw [hN]; omega
  refine ⟨⟨4 * (i 0).val + 3, hT⟩, (flush0_3 _).mpr (by show (4 * (i 0).val + 3) % 4 = 3; omega), ?_⟩
  obtain ⟨j0, j1, j2⟩ := index_count ⟨4 * (i 0).val + 3, hT⟩
  show i ∈ ((View.whole main_v0_1).slice (win0_3.rect ⟨4 * (i 0).val + 3, hT⟩)).set
  rw [View.set_slice_whole, Rect.mem_set_unit]
  intro a
  match a with
  | ⟨0, _⟩ =>
    show win0_3.index _ 0 * 1 ≤ (i 0).val ∧ (i 0).val < win0_3.index _ 0 * 1 + 1
    rw [j0]; show (4 * (i 0).val + 3) / 4 * 1 ≤ (i 0).val ∧ (i 0).val < (4 * (i 0).val + 3) / 4 * 1 + 1; omega
  | ⟨1, _⟩ =>
    show win0_3.index _ 1 * 50 ≤ (i 1).val ∧ (i 1).val < win0_3.index _ 1 * 50 + 50
    rw [j1]; omega
  | ⟨2, _⟩ =>
    show win0_3.index _ 2 * 1 ≤ (i 2).val ∧ (i 2).val < win0_3.index _ 2 * 1 + 1
    rw [j2]; omega

/-- The sums array after the run is the closed form, -/
theorem final_sum (c : Dev nD) : (dats m 0 c).arrAt 2 cfg0.N = sums m c :=
  (dats m 0 c).arrAt_eq_of_cover 2 (sums m c) (fun t hf => flushed_sum m c t hf) (fun i => cover_sum i)
/-- and so is the counts array. -/
theorem final_count (c : Dev nD) : (dats m 0 c).arrAt 3 cfg0.N = counts m c :=
  (dats m 0 c).arrAt_eq_of_cover 3 (counts m c) (fun t hf => flushed_count m c t hf) (fun i => cover_count i)

end Cert.KernelIdeal.Mean

end
-- ==== Proof.LibTileSum.lean ====
/-
  A sum over positions, taken tile by tile.  When N positions are covered by T tiles of L lanes each (N ≤ T·L, the last
  tiles possibly overhanging), the sum of f over the N positions is the sum over the tiles of the sum over the lanes of
  f at position t·L + l, the lanes at positions past N contributing zero.  Only commutativity and associativity of the
  addition are used, so the law holds in every commutative additive monoid — on the extended reals without any finiteness.
-/
import Mathlib.Algebra.BigOperators.Fin
import Mathlib.Algebra.BigOperators.Intervals

namespace Cert.LibTileSum

open Finset

variable {M : Type*} [AddCommMonoid M]

/-- T full tiles of L lanes are the first T·L positions. -/
theorem sum_range_tiles (g : ℕ → M) (L : ℕ) :
    ∀ T : ℕ, ∑ t ∈ range T, ∑ l ∈ range L, g (t * L + l) = ∑ n ∈ range (T * L), g n
  | 0 => by simp
  | T + 1 => by rw [sum_range_succ, sum_range_tiles g L T, Nat.succ_mul, sum_range_add]

/-- The sum over N positions is the masked sum over T tiles of L lanes, when the tiles cover the positions. -/
theorem sum_tiles (f : ℕ → M) (T L N : ℕ) (h : N ≤ T * L) :
    ∑ n : Fin N, f n.val
      = ∑ t : Fin T, ∑ l : Fin L, (if t.val * L + l.val < N then f (t.val * L + l.val) else 0) := by
  have inner : ∀ t : Fin T, (∑ l : Fin L, (if t.val * L + l.val < N then f (t.val * L + l.val) else 0))
      = ∑ l ∈ range L, (fun n => if n < N then f n else 0) (t.val * L + l) :=
    fun t => Fin.sum_univ_eq_sum_range (fun l => (fun n => if n < N then f n else 0) (t.val * L + l)) L
  rw [Fin.sum_univ_eq_sum_range (fun n => f n) N, Finset.sum_congr rfl fun t _ => inner t,
    Fin.sum_univ_eq_sum_range (fun t => ∑ l ∈ range L, (fun n => if n < N then f n else 0) (t * L + l)) T,
    sum_range_tiles (fun n => if n < N then f n else 0) L T, ← sum_filter]
  refine Finset.sum_congr ?_ fun _ _ => rfl
  ext n
  simp only [mem_filter, mem_range]
  omega

end Cert.LibTileSum
-- ==== Proof.Mean.Result.lean ====
/-
  The result.  After the region the program adds the two halves' sums and counts, divides the summed sums by the summed counts
  (the counts broadcast along the channels), and broadcasts the [50, 64] quotient over the 32 batch rows.  The reference forms the
  same quotient from one sum over all 50000 voxels:
      mean(k, c) = ( Σ_v [word(k, v) = 1] · x(0, v, c) ) / ( Σ_v [word(k, v) = 1] ).
  The two halves' totals are eight tile totals; by the tile law (a sum over positions taken tile by tile, the overhang
  masked) they add up to the sum over the 50000 voxels, for the sums and for the counts alike.  Only commutativity and
  associativity of the addition of extended reals are used; the division is the same operation on both sides.
-/
import proofs.«176787_j51694226375164_2_alg».proof.Defs
import proofs.«176787_j51694226375164_2_alg».proof.Proof.Mean.Arrays
import proofs.«176787_j51694226375164_2_alg».proof.Proof.LibTileSum
import proofs.«176787_j51694226375164_2_alg».proof.Proof.Gen.ReferenceIdeal.Read
import proofs.«176787_j51694226375164_2_alg».proof.Proof.Gen.Pre_finite_inputs
import Idealize.ShloMosaic.Lib.StableHlo.Run
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Mean

open Cert.KernelIdeal Cert.KernelIdeal.Gen Cert.KernelIdeal.Pool
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.ReferenceIdeal (main_v11)

/-- A unit slab of a rank-3 array at its leading offset p, entry by entry. -/
theorem slab_apply {n b d : ℕ} (off : Fin 3 → ℕ) (X : (⟨3, ![n, b, d]⟩ : Shape).Idx → EReal)
    (h : (⟨3, ![n, b, d]⟩ : Shape).Slices off ⟨3, ![1, b, d]⟩) (p : Fin n) (e0 : off 0 = p.val) (e1 : off 1 = 0) (e2 : off 2 = 0)
    (k : Fin b) (ch : Fin d) :
    extractStridedSlice ⟨3, ![1, b, d]⟩ off X h (ix3 (0 : Fin 1) k ch) = X (ix3 p k ch) :=
  extractStridedSlice_apply off X h (ix3 (0 : Fin 1) k ch) (ix3 p k ch) (fun a => match a with
    | ⟨0, _⟩ => by show p.val = off 0 + 0; omega
    | ⟨1, _⟩ => by show k.val = off 1 + k.val; omega
    | ⟨2, _⟩ => by show ch.val = off 2 + ch.val; omega)

/-- A column broadcast along the channels reads the column. -/
theorem col_bcast_apply (y : S50x1.Idx → EReal) (k : Fin 50) (ch : Fin 64) :
    broadcastInDim S50x64 ![0, 1] bcast_S50x1_S50x64_0_1 y (ix2 k ch) = y (ix2 k (0 : Fin 1)) :=
  broadcastInDim_apply _ bcast_S50x1_S50x64_0_1 y (ix2 k ch) (ix2 k (0 : Fin 1)) (fun a => match a with
    | ⟨0, _⟩ => by show k.val = if (50 : Nat) = 1 then 0 else k.val; rw [if_neg (by decide)]
    | ⟨1, _⟩ => by show 0 = if (1 : Nat) = 1 then 0 else ch.val; rw [if_pos rfl])

/-- The quotient the program forms after the region, from the two output arrays. -/
def kmean (c : Dev nD) : S50x64.Idx → EReal :=
  Host.divf (F := Ideal) (φ := .f32)
    (addf (F := Ideal) (φ := .f32) (shapeCast S50x64 (extractStridedSlice S1x50x64 ![0, 0, 0] (sums m c) slices_S2x50x64_S1x50x64_0_0_0) shapeCasts_S1x50x64_S50x64)
      (shapeCast S50x64 (extractStridedSlice S1x50x64 ![1, 0, 0] (sums m c) slices_S2x50x64_S1x50x64_1_0_0) shapeCasts_S1x50x64_S50x64))
    (broadcastInDim S50x64 ![0, 1] bcast_S50x1_S50x64_0_1
      (addf (F := Ideal) (φ := .f32) (shapeCast S50x1 (extractStridedSlice S1x50x1 ![0, 0, 0] (counts m c) slices_S2x50x1_S1x50x1_0_0_0) shapeCasts_S1x50x1_S50x1)
        (shapeCast S50x1 (extractStridedSlice S1x50x1 ![1, 0, 0] (counts m c) slices_S2x50x1_S1x50x1_1_0_0) shapeCasts_S1x50x1_S50x1)))

/-- The arrays the lines after the region read are the closed forms. -/
theorem arr_sum (c : Dev nD) :
    Pipeline.withArrays (cfgs 0).spec c (V0 m c) (fun w => (dats m 0 c).arrAt w (cfgs 0).N) (Proc.devRef .tc main_v0_0) = sums m c :=
  (Pipeline.withArrays_arr spec0 launch0.win.arr_inj c _ _ 2).trans (final_sum m c)
theorem arr_count (c : Dev nD) :
    Pipeline.withArrays (cfgs 0).spec c (V0 m c) (fun w => (dats m 0 c).arrAt w (cfgs 0).N) (Proc.devRef .tc main_v0_1) = counts m c :=
  (Pipeline.withArrays_arr spec0 launch0.win.arr_inj c _ _ 3).trans (final_count m c)

/-- What the lines after the region leave in the result buffer: the quotient broadcast over the batch. -/
theorem tail_value (c : Dev nD) :
    Pipeline.afterTail₀ cfgs (dats m) 0 (V0 m) [hostOps1] c main_v14
      = broadcastInDim S32x50x64 ![0, 1, 2] bcast_S1x50x64_S32x50x64_0_1_2
          (broadcastInDim S1x50x64 ![1, 2] bcast_S50x64_S1x50x64_1_2 (kmean m c)) := by
  unfold Pipeline.afterTail₀
  show StableHlo.after hostOps1 _ (Proc.devRef .tc main_v14) = _
  after_results
  rw [arr_sum m c, arr_count m c]
  rfl

/-- The quotient at cluster k and channel ch. -/
theorem kmean_apply (c : Dev nD) (k : Fin 50) (ch : Fin 64) :
    kmean m c (ix2 k ch)
      = FloatOps.hostDivf (F := Ideal) (φ := .f32) (sums m c (ix3 (0 : Fin 2) k ch) + sums m c (ix3 (1 : Fin 2) k ch))
          (counts m c (ix3 (0 : Fin 2) k (0 : Fin 1)) + counts m c (ix3 (1 : Fin 2) k (0 : Fin 1))) := by
  unfold kmean
  simp only [Host.divf]
  rw [col_bcast_apply, addf_apply, addf_apply, shapeCast_1ab_ab_apply, shapeCast_1ab_ab_apply, shapeCast_1ab_ab_apply, shapeCast_1ab_ab_apply,
    slab_apply ![0, 0, 0] (sums m c) _ (0 : Fin 2) rfl rfl rfl, slab_apply ![1, 0, 0] (sums m c) _ (1 : Fin 2) rfl rfl rfl,
    slab_apply ![0, 0, 0] (counts m c) _ (0 : Fin 2) rfl rfl rfl, slab_apply ![1, 0, 0] (counts m c) _ (1 : Fin 2) rfl rfl rfl]

/-- A position's contribution masked by "inside the array" is the contribution: it is zero outside already. -/
theorem sumTerm_masked (c : Dev nD) (k : Fin 50) (ch : Fin 64) (v : ℕ) :
    (if v < 50000 then sumTerm m c k ch v else 0) = sumTerm m c k ch v := by
  split
  · rfl
  · rename_i h; unfold sumTerm; rw [dif_neg h]
theorem cntTerm_masked (c : Dev nD) (k : Fin 50) (v : ℕ) :
    (if v < 50000 then cntTerm m c k v else 0) = cntTerm m c k v := by
  split
  · rfl
  · rename_i h; unfold cntTerm; rw [dif_neg h]

/-- The two halves' totals added up are the sum over all 50000 voxels; -/
theorem total_sum (c : Dev nD) (k : Fin 50) (ch : Fin 64) :
    halfSum m c 0 k ch + halfSum m c 1 k ch
      = ∑ v : Fin 50000, ind (m ((c.tc : Thread nD τ).loc main_arg1) (ix2 k v)) * m ((c.tc : Thread nD τ).loc main_arg0) (ix3 (0 : Fin 32) v ch) := by
  have e : (∑ v : Fin 50000, ind (m ((c.tc : Thread nD τ).loc main_arg1) (ix2 k v)) * m ((c.tc : Thread nD τ).loc main_arg0) (ix3 (0 : Fin 32) v ch))
      = ∑ v : Fin 50000, sumTerm m c k ch v.val :=
    Finset.sum_congr rfl fun v _ => by unfold sumTerm; rw [dif_pos v.isLt]
  rw [e, Cert.LibTileSum.sum_tiles (sumTerm m c k ch) 8 6400 50000 (by norm_num)]
  simp only [sumTerm_masked]
  rw [Fin.sum_univ_eight]
  show (tileSum m c k ch 0 + tileSum m c k ch 1 + tileSum m c k ch 2 + tileSum m c k ch 3)
      + (tileSum m c k ch 4 + tileSum m c k ch 5 + tileSum m c k ch 6 + tileSum m c k ch 7)
    = tileSum m c k ch 0 + tileSum m c k ch 1 + tileSum m c k ch 2 + tileSum m c k ch 3
      + tileSum m c k ch 4 + tileSum m c k ch 5 + tileSum m c k ch 6 + tileSum m c k ch 7
  simp only [add_assoc]
/-- and so for the counts. -/
theorem total_count (c : Dev nD) (k : Fin 50) :
    halfCnt m c 0 k + halfCnt m c 1 k = ∑ v : Fin 50000, ind (m ((c.tc : Thread nD τ).loc main_arg1) (ix2 k v)) := by
  have e : (∑ v : Fin 50000, ind (m ((c.tc : Thread nD τ).loc main_arg1) (ix2 k v))) = ∑ v : Fin 50000, cntTerm m c k v.val :=
    Finset.sum_congr rfl fun v _ => by unfold cntTerm; rw [dif_pos v.isLt]
  rw [e, Cert.LibTileSum.sum_tiles (cntTerm m c k) 8 6400 50000 (by norm_num)]
  simp only [cntTerm_masked]
  rw [Fin.sum_univ_eight]
  show (tileCnt m c k 0 + tileCnt m c k 1 + tileCnt m c k 2 + tileCnt m c k 3)
      + (tileCnt m c k 4 + tileCnt m c k 5 + tileCnt m c k 6 + tileCnt m c k 7)
    = tileCnt m c k 0 + tileCnt m c k 1 + tileCnt m c k 2 + tileCnt m c k 3
      + tileCnt m c k 4 + tileCnt m c k 5 + tileCnt m c k 6 + tileCnt m c k 7
  simp only [add_assoc]

section Reference

open Cert.ReferenceIdeal.Read

/-- The reference's 0/1 membership at (k, v). -/
theorem ref_ind (x1 : (⟨2, ![50, 50000]⟩ : Shape).Idx → BitVec 32) (j : (⟨2, ![50, 50000]⟩ : Shape).Idx) :
    val_main_v2 (F := Ideal) x1 j = ind (x1 j) := by
  rw [val_main_v2_apply, val_main_v1_apply, val_main_v0_apply, val_main_c_apply]
  exact ind_unsigned (x1 j)

/-- The reference's numerator at (k, ch): the sum over the voxels of membership times feature of batch row 0; -/
theorem ref_num (x0 : (⟨3, ![32, 50000, 64]⟩ : Shape).Idx → EReal) (x1 : (⟨2, ![50, 50000]⟩ : Shape).Idx → BitVec 32) (k : Fin 50) (ch : Fin 64) :
    val_main_v6 (F := Ideal) x0 x1 (ix2 k ch) = ∑ v : Fin 50000, ind (x1 (ix2 k v)) * x0 (ix3 (0 : Fin 32) v ch) := by
  rw [val_main_v6_apply]
  refine Finset.sum_congr rfl fun v _ => ?_
  have el : lidx_main_v6 (ix2 k ch) v = ix2 k v := funext fun a => Fin.ext (by match a with | ⟨0, _⟩ => rfl | ⟨1, _⟩ => rfl)
  have er : idx_main_v4 (idx_main_v5 (ridx_main_v6 (ix2 k ch) v)) = ix3 (0 : Fin 32) v ch := funext fun a => Fin.ext (by
    have hv := v.isLt
    have hc := ch.isLt
    match a with
    | ⟨0, _⟩ => rfl
    | ⟨1, _⟩ => show (v.val * 64 + ch.val) / 64 % 50000 = v.val; omega
    | ⟨2, _⟩ => show (v.val * 64 + ch.val) % 64 = ch.val; omega)
  rw [ref_ind, val_main_v5_apply, val_main_v4_apply, el, er]
/-- its denominator: the count of members. -/
theorem ref_den (x1 : (⟨2, ![50, 50000]⟩ : Shape).Idx → BitVec 32) (k : Fin 50) (ch : Fin 64) :
    val_main_v8 (F := Ideal) x1 (ix2 k ch) = ∑ v : Fin 50000, ind (x1 (ix2 k v)) := by
  rw [val_main_v8_apply, val_main_v7_apply, val_main_v3_apply, val_main_cst_apply]
  show Ideal.ofBits .f32 0x00000000#32 + _ = _
  rw [Ideal.ofBits_zero_f32, zero_add]
  refine Finset.sum_congr rfl fun v _ => ?_
  rw [ref_ind]
  exact congrArg (fun j => ind (x1 j)) (funext fun a => Fin.ext (by match a with | ⟨0, _⟩ => rfl | ⟨1, _⟩ => rfl))

/-- The program's quotient is the reference's. -/
theorem core_eq (c : Dev nD) :
    kmean m c = val_main_v9 (F := Ideal) (m ((c.tc : Thread nD τ).loc main_arg0)) (m ((c.tc : Thread nD τ).loc main_arg1)) := by
  funext j
  obtain ⟨k, ch, rfl⟩ : ∃ (k : Fin 50) (ch : Fin 64), j = ix2 k ch := ⟨j 0, j 1, eq_ix2 j⟩
  rw [kmean_apply, val_main_v9_apply, ref_num, ref_den]
  show FloatOps.hostDivf (F := Ideal) (φ := .f32) (halfSum m c 0 k ch + halfSum m c 1 k ch) (halfCnt m c 0 k + halfCnt m c 1 k) = _
  rw [total_sum, total_count]

/-- So the result buffer holds the reference's result of the same argument arrays. -/
theorem out_eq (c : Dev nD) :
    Pipeline.afterTail₀ cfgs (dats m) 0 (V0 m) [hostOps1] c main_v14
      = val_main_v11 (F := Ideal) (m ((c.tc : Thread nD τ).loc main_arg0)) (m ((c.tc : Thread nD τ).loc main_arg1)) := by
  rw [tail_value m c, core_eq m c]
  unfold val_main_v11 val_main_v10
  rfl

end Reference

/-- The two idealized programs, run from memories agreeing on the arguments, end with equal results. -/
theorem algebraic : Cert.algebraic_KernelIdeal_ReferenceIdeal := by
  intro m ρ m' ρ' _ hagree
  refine ⟨fun c => Cert.ReferenceIdeal.Read.val_main_v11 (F := Ideal) (m ((c.tc : Thread nD τ).loc main_arg0))
    (m ((c.tc : Thread nD τ).loc main_arg1)), ?_, ?_⟩
  · refine (θ_run defs _ _).mono (fun r h c => ⟨?_, ?_, ?_⟩) (run_main m ρ)
    · exact ((h c).2 main_v14 (Pipeline.mem_restRefs_of main_v14 rfl (by decide))).trans (out_eq m c)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.ReferenceIdeal.defs _ _).mono (fun _ h c => ⟨?_, (h c).2⟩) (Cert.ReferenceIdeal.Value.run (F := Ideal) m' ρ')
    rw [(h c).1, Cert.ReferenceIdeal.Read.val_main_v11_eq, (hagree c).1, (hagree c).2]

end Cert.KernelIdeal.Mean

end
-- ==== Proof.lean ====
/-
  Masked mean pooling over clusters: a Pallas TPU kernel against its jnp reference, over the extended reals.

  Inputs: features x of shape [32, 50000, 64] and cluster words of shape [50, 50000].  For cluster k and channel c both programs
  compute, from batch row 0 alone,
      mean(k, c) = ( Σ_v [word(k, v) = 1] · x(0, v, c) ) / ( Σ_v [word(k, v) = 1] ),
  and broadcast it over the 32 batch rows.

  The reference takes the two sums over all 50000 voxels at once.  The kernel cuts the voxel axis into eight tiles of 6400
  (8 · 6400 = 51200 > 50000: the last tile overhangs by 1200 voxels) and runs a 2 × 4 grid: half p works on tiles 4p … 4p + 3,
  adding each tile's masked count (a lane sum) and masked sum (a matrix product of the 0/1 membership with the tile of features)
  to two accumulators that restart from zero at the half's first tile and are copied out at its last; the host then adds the
  two halves and divides.  Membership is masked by position, so the overhang — whose buffer words nothing names — enters
  only as 0 · y = 0.  Regrouping a sum uses only commutativity and associativity of the addition of extended reals, so the
  two quotients agree for all inputs; the precondition is not used.

  Frames: every weakly fair execution of each program ends, nothing faults, and the argument arrays end unchanged.  For the
  word-level kernel nothing is said of what it computes (with unnamed words in the overhang its outputs have no closed form);
  for the idealized kernel every buffer's contents are named point by point, which also gives its result.
-/
import proofs.«176787_j51694226375164_2_alg».proof.Defs
import proofs.«176787_j51694226375164_2_alg».proof.Proof.Gen.Kernel
import proofs.«176787_j51694226375164_2_alg».proof.Proof.Gen.Kernel.Skeleton
import proofs.«176787_j51694226375164_2_alg».proof.Proof.Gen.Kernel.Launch
import proofs.«176787_j51694226375164_2_alg».proof.Proof.Gen.Kernel.Points
import proofs.«176787_j51694226375164_2_alg».proof.Proof.Gen.Kernel.Frame
import proofs.«176787_j51694226375164_2_alg».proof.Proof.Gen.KernelIdeal
import proofs.«176787_j51694226375164_2_alg».proof.Proof.Gen.KernelIdeal.Skeleton
import proofs.«176787_j51694226375164_2_alg».proof.Proof.Gen.KernelIdeal.Launch
import proofs.«176787_j51694226375164_2_alg».proof.Proof.Gen.KernelIdeal.Points
import proofs.«176787_j51694226375164_2_alg».proof.Proof.Gen.KernelIdeal.Frame
import proofs.«176787_j51694226375164_2_alg».proof.Proof.Gen.ReferenceIdeal
import proofs.«176787_j51694226375164_2_alg».proof.Proof.Gen.Pre_finite_inputs
import proofs.«176787_j51694226375164_2_alg».proof.Proof.Gen.ReferenceIdeal.Run
import proofs.«176787_j51694226375164_2_alg».proof.Proof.Gen.ReferenceIdeal.Read
import proofs.«176787_j51694226375164_2_alg».proof.Proof.PoolBits.Forget
import proofs.«176787_j51694226375164_2_alg».proof.Proof.Mean.Result
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Pool.frame (F := Bits) m ρ
/-- So does the idealized kernel. -/
theorem frame_kernel_ideal : Cert.frame_KernelIdeal := fun m ρ _ => Cert.KernelIdeal.Mean.frame m ρ
/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.KernelIdeal.Mean.algebraic⟩

end Cert.Proof

end
